-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4 : Shape := ⟨1, ![4]⟩
abbrev S1x4096x3 : Shape := ⟨3, ![1, 4096, 3]⟩
abbrev S1x4096 : Shape := ⟨2, ![1, 4096]⟩
abbrev S4096x3 : Shape := ⟨2, ![4096, 3]⟩
abbrev S3x4096 : Shape := ⟨2, ![3, 4096]⟩
abbrev S4096 : Shape := ⟨1, ![4096]⟩
abbrev S1x1024x3 : Shape := ⟨3, ![1, 1024, 3]⟩
abbrev S1024x3 : Shape := ⟨2, ![1024, 3]⟩
abbrev S1024 : Shape := ⟨1, ![1024]⟩
abbrev S1024x1 : Shape := ⟨2, ![1024, 1]⟩
abbrev S1x1024 : Shape := ⟨2, ![1, 1024]⟩
abbrev S3x1024 : Shape := ⟨2, ![3, 1024]⟩
abbrev S1024x1024 : Shape := ⟨2, ![1024, 1024]⟩
abbrev S1 : Shape := ⟨1, ![1]⟩
abbrev S1x1 : Shape := ⟨2, ![1, 1]⟩
abbrev S1x4 : Shape := ⟨2, ![1, 4]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4, .f32⟩
  | .local _ .vmem, ⟨0, _⟩ => ⟨S1x4096x3, .f32⟩
  | .local _ .vmem, ⟨1, _⟩ => ⟨S1x4096x3, .f32⟩
  | .local _ .vmem, ⟨2, _⟩ => ⟨S1x4096x3, .f32⟩
  | .local _ .vmem, ⟨3, _⟩ => ⟨S1x4096x3, .f32⟩
  | .local _ .vmem, ⟨4, _⟩ => ⟨S4, .f32⟩
  | .local _ .vmem, ⟨5, _⟩ => ⟨S1x4096, .f32⟩
  | .local _ .vmem, ⟨6, _⟩ => ⟨S1x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  transposes_S4096x3_p1_0_S3x4096 : S4096x3.Transposes [1, 0] S3x4096
  reduces_S3x4096_S4096 : S3x4096.Reduces [0] S4096
  shapeCasts_S4096_S1x4096 : S4096.ShapeCasts S1x4096
  inb_S1x4096x3_S1x1024x3_0_0_0 : ∀ a, (![0, 0, 0] : Fin 3 → Nat) a + S1x1024x3.size a ≤ S1x4096x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  slices_S1x4096_o0_0_S1x1024 : S1x4096.Slices ![0, 0] S1x1024
  slices_S3x4096_o0_0_S3x1024 : S3x4096.Slices ![0, 0] S3x1024
  slices_S1024x3_o0_0_S1024x1 : S1024x3.Slices ![0, 0] S1024x1
  slices_S3x1024_o0_0_S1x1024 : S3x1024.Slices ![0, 0] S1x1024
  broadcasts_S1024x1_S1024x1024 : S1024x1.Broadcasts S1024x1024
  broadcasts_S1x1024_S1024x1024 : S1x1024.Broadcasts S1024x1024
  slices_S1024x3_o0_1_S1024x1 : S1024x3.Slices ![0, 1] S1024x1
  slices_S3x1024_o1_0_S1x1024 : S3x1024.Slices ![1, 0] S1x1024
  slices_S1024x3_o0_2_S1024x1 : S1024x3.Slices ![0, 2] S1024x1
  slices_S3x1024_o2_0_S1x1024 : S3x1024.Slices ![2, 0] S1x1024
  reduces_S1024x1024_S1024 : S1024x1024.Reduces [0] S1024
  shapeCasts_S1024_S1x1024 : S1024.ShapeCasts S1x1024
  reduces_S1024x1024_S1024_2 : S1024x1024.Reduces [1] S1024
  transposes_S1024x1_p1_0_S1x1024 : S1024x1.Transposes [1, 0] S1x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  slices_S1x4096_o0_1024_S1x1024 : S1x4096.Slices ![0, 1024] S1x1024
  slices_S3x4096_o0_1024_S3x1024 : S3x4096.Slices ![0, 1024] S3x1024
  inb_S1x4096_S1x1024_0_1024 : ∀ a, (![0, 1024] : Fin 2 → Nat) a + S1x1024.size a ≤ S1x4096.size a
  slices_S1x4096_o0_2048_S1x1024 : S1x4096.Slices ![0, 2048] S1x1024
  slices_S3x4096_o0_2048_S3x1024 : S3x4096.Slices ![0, 2048] S3x1024
  inb_S1x4096_S1x1024_0_2048 : ∀ a, (![0, 2048] : Fin 2 → Nat) a + S1x1024.size a ≤ S1x4096.size a
  slices_S1x4096_o0_3072_S1x1024 : S1x4096.Slices ![0, 3072] S1x1024
  slices_S3x4096_o0_3072_S3x1024 : S3x4096.Slices ![0, 3072] S3x1024
  inb_S1x4096_S1x1024_0_3072 : ∀ a, (![0, 3072] : Fin 2 → Nat) a + S1x1024.size a ≤ S1x4096.size a
  inb_S1x4096x3_S1x1024x3_0_1024_0 : ∀ a, (![0, 1024, 0] : Fin 3 → Nat) a + S1x1024x3.size a ≤ S1x4096x3.size a
  inb_S1x4096x3_S1x1024x3_0_2048_0 : ∀ a, (![0, 2048, 0] : Fin 3 → Nat) a + S1x1024x3.size a ≤ S1x4096x3.size a
  inb_S1x4096x3_S1x1024x3_0_3072_0 : ∀ a, (![0, 3072, 0] : Fin 3 → Nat) a + S1x1024x3.size a ≤ S1x4096x3.size a
  reduces_S1x4096_S1 : S1x4096.Reduces [1] S1
  shapeCasts_S1_S1x1 : S1.ShapeCasts S1x1
  inpos_S1x1_p0_0 : ∀ a, (![0, 0] : Fin 2 → Nat) a < S1x1.size a
  iota_S1x4_d1_w32 : S1x4.Iotas .tc 32 [1]
  shapeCasts_S1x4_S4 : S1x4.ShapeCasts S4
  inb_S4_S4_0 : ∀ a, (![0] : Fin 1 → Nat) a + S4.size a ≤ S4.size a
  h_S4 : 0 < S4.numel
  shapeCasts_S4_S4 : S4.ShapeCasts S4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S4x4096x3.size a
  hwx0_0 : ∀ i : grid0.Coords, EltTy.bits .f32 = 32 ∨ (Rect.block (s := S4x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S4x4096x3.size a
  hwx0_1 : ∀ i : grid0.Coords, EltTy.bits .f32 = 32 ∨ (Rect.block (s := S4x4096x3) S1x4096x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)

variable [Facts₀]

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S4x1x4096x3 : Shape := ⟨4, ![4, 1, 4096, 3]⟩
abbrev S4x4096x1x3 : Shape := ⟨4, ![4, 4096, 1, 3]⟩
abbrev S4x4096x4096x3 : Shape := ⟨4, ![4, 4096, 4096, 3]⟩
abbrev S_ : Shape := ⟨0, ![]⟩
abbrev S4x4096x4096 : Shape := ⟨3, ![4, 4096, 4096]⟩
abbrev S4x4096 : Shape := ⟨2, ![4, 4096]⟩
abbrev S4 : Shape := ⟨1, ![4]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x1x4096x3, .f32⟩
  | .hbm, ⟨3, _⟩ => ⟨S4x4096x1x3, .f32⟩
  | .hbm, ⟨4, _⟩ => ⟨S4x4096x4096x3, .f32⟩
  | .hbm, ⟨5, _⟩ => ⟨S4x4096x4096x3, .f32⟩
  | .hbm, ⟨6, _⟩ => ⟨S4x4096x4096x3, .f32⟩
  | .hbm, ⟨7, _⟩ => ⟨S4x4096x4096x3, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S_, .f32⟩
  | .hbm, ⟨19, _⟩ => ⟨S4x4096, .f32⟩
  | .hbm, ⟨20, _⟩ => ⟨S_, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S4, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S4x4096x3_S4x1x4096x3_0_2_3 : S4x4096x3.BroadcastsInDim S4x1x4096x3 (![0, 2, 3] : Fin 3 → Fin S4x1x4096x3.rank)
  bcast_S4x4096x3_S4x4096x1x3_0_1_3 : S4x4096x3.BroadcastsInDim S4x4096x1x3 (![0, 1, 3] : Fin 3 → Fin S4x4096x1x3.rank)
  bcast_S4x1x4096x3_S4x4096x4096x3_0_1_2_3 : S4x1x4096x3.BroadcastsInDim S4x4096x4096x3 (![0, 1, 2, 3] : Fin 4 → Fin S4x4096x4096x3.rank)
  bcast_S4x4096x1x3_S4x4096x4096x3_0_1_2_3 : S4x4096x1x3.BroadcastsInDim S4x4096x4096x3 (![0, 1, 2, 3] : Fin 4 → Fin S4x4096x4096x3.rank)
  reducesTo_S4x4096x4096x3_S4x4096x4096_d3 : S4x4096x4096x3.ReducesTo [3] S4x4096x4096
  h_S_ : 0 < S_.numel
  reducesTo_S4x4096x4096_S4x4096_d1 : S4x4096x4096.ReducesTo [1] S4x4096
  reducesTo_S4x4096_S4_d1 : S4x4096.ReducesTo [1] S4
  bcast_S_S4 : S_.BroadcastsInDim S4 (![] : Fin 0 → Fin S4.rank)
  reducesTo_S4x4096x4096_S4x4096_d2 : S4x4096x4096.ReducesTo [2] S4x4096

variable [Facts₀]

class Facts : Prop extends Facts₀ where

variable [Facts]
-- ==== Proof.KBody.lean ====
/-
  The frame of the kernel, and what one grid point does to its output buffer.

  The grid has one point per batch.  At point `t` the body resets two running-minimum rows to +∞,
  sweeps the sixteen tiles of the 4096 × 4096 distance matrix of the batch, folding each tile's column
  minima and row minima into the two rows, averages each row, adds the two averages, and writes the
  sum into entry `t` of the four-entry output buffer: the other three entries are stored back as they
  were read.  The output buffer is the same at every point and is written back to its array after the
  last point only, so what the body finds there at the first point is arbitrary; nothing the body
  does depends on it except the three entries it copies.

  The proof data are therefore RELATIONAL: an input buffer is left as found, the output buffer is
  left at one function of the two input blocks and of what was found.  The body's run is one symbolic
  execution, which finds that function as the payload of the last store.
-/
import proofs.«175803_j49950469653255_1_alg».proof.Proof.Gen.Kernel.Frame
import proofs.«175803_j49950469653255_1_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body is called on -/

/-- The current buffer of each window at point `t`, and that it is a whole buffer. -/
abbrev ms0 (t : Fin cfg0.N) : Memref sig .tc .vmem S1x4096x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4 .f32 := win0_2.stage (cfg0.slots t 2)
abbrev hs2 (t : Fin cfg0.N) : (ms2 t).IsWhole := hstage0_2 ((cfg0.slots t 2).cast nbuf0_2)
/-- The two running-minimum rows: whole buffers of the kernel's own. -/
abbrev rowBuf : Memref sig .tc .vmem S1x4096 .f32 := Memref.whole cc0_scratch0
abbrev colBuf : Memref sig .tc .vmem S1x4096 .f32 := Memref.whole cc0_scratch1

/-- What the region lends the body besides the windows: the two rows at any contents, and the generator register. -/
theorem inv_eq (c : Dev nD) :
    (Pipeline.ΦA spec0 c : sProp 𝕄)
      = iprop(iprop((∃ d, owns (c : Thread nD τ) rowBuf fullShare d) ∗ (∃ d, owns (c : Thread nD τ) colBuf fullShare d)) ∗ (∃ r, prngReg c r)) := by
  unfold Pipeline.ΦA; rw [scopedRest0_eq]; simp only [rowBuf, colBuf, owns_whole]; try rfl

/-! ## One run of the body -/

set_option maxHeartbeats 2000000 in
/-- On whole buffers — the two inputs at `x0`, `x1`, the output at `x2`, the two rows at anything — the body
    runs and hands back the inputs as they were, the rows at something, and the output with one store
    written over it; the store (its rectangle and its payload) is what the run finds. -/
noncomputable def bodyRun (c : Dev nD) (i : grid0.Coords) (arg1 : Memref sig .tc .vmem S1x4096x3 .f32) (harg1 : arg1.IsWhole) (arg2 : Memref sig .tc .vmem S1x4096x3 .f32) (harg2 : arg2.IsWhole) (arg3 : Memref sig .tc .vmem S4 .f32) (harg3 : arg3.IsWhole) (arg4 : Memref sig .tc .vmem S1x4096 .f32) (harg4 : arg4.IsWhole) (arg5 : Memref sig .tc .vmem S1x4096 .f32) (harg5 : arg5.IsWhole)
    (x0 : Vec F S1x4096x3 .f32) (x1 : Vec F S1x4096x3 .f32) (x2 : Vec F S4 .f32) :
    { L : List (View.Piece (Elt F) S4 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L) ∗ (∃ d, owns (c : Thread nD τ) arg4 fullShare d) ∗ (∃ d, owns (c : Thread nD τ) arg5 fullShare d)) -∗ K ⟨⟩))
          ⊢ wp frame (wpE (defs₀ (F := F)) Variants.none c none) E (cc0__chamfer_kernel i arg1 harg1 arg2 harg2 arg3 harg3 arg4 harg4 arg5 harg5) K } := by
  refine ⟨?_, fun E K => ?run⟩
  case run =>
    simp only [cc0__chamfer_kernel_eq_skeleton]; unfold cc0__chamfer_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [HS0]
    · iexists _, _; isplitr; swap; · iexact HS0
      ipureintro; rfl
    iexists _, _; isplitr; swap; · iexact HS1
    ipureintro; rfl

/-- The one store covers the four-entry buffer. -/
theorem bodyRun_cover (c : Dev nD) (i : grid0.Coords) (arg1 : Memref sig .tc .vmem S1x4096x3 .f32) (harg1 : arg1.IsWhole) (arg2 : Memref sig .tc .vmem S1x4096x3 .f32) (harg2 : arg2.IsWhole) (arg3 : Memref sig .tc .vmem S4 .f32) (harg3 : arg3.IsWhole) (arg4 : Memref sig .tc .vmem S1x4096 .f32) (harg4 : arg4.IsWhole) (arg5 : Memref sig .tc .vmem S1x4096 .f32) (harg5 : arg5.IsWhole)
    (x0 : Vec F S1x4096x3 .f32) (x1 : Vec F S1x4096x3 .f32) (x2 : Vec F S4 .f32) (y : S4.Idx) :
    ∃ pc ∈ (bodyRun c i arg1 harg1 arg2 harg2 arg3 harg3 arg4 harg4 arg5 harg5 x0 x1 x2).1, y ∈ pc.1.set :=
  View.cover_of_tiledL (bodyRun c i arg1 harg1 arg2 harg2 arg3 harg3 arg4 harg4 arg5 harg5 x0 x1 x2).1 S4.size (by sl_kernel_rfl) y

/-- What the body leaves in the output buffer: the store's payload, as contents of the four entries. -/
def leaves (c : Dev nD) (i : grid0.Coords) (arg1 : Memref sig .tc .vmem S1x4096x3 .f32) (harg1 : arg1.IsWhole) (arg2 : Memref sig .tc .vmem S1x4096x3 .f32) (harg2 : arg2.IsWhole) (arg3 : Memref sig .tc .vmem S4 .f32) (harg3 : arg3.IsWhole) (arg4 : Memref sig .tc .vmem S1x4096 .f32) (harg4 : arg4.IsWhole) (arg5 : Memref sig .tc .vmem S1x4096 .f32) (harg5 : arg5.IsWhole)
    (x0 : Vec F S1x4096x3 .f32) (x1 : Vec F S1x4096x3 .f32) (x2 : Vec F S4 .f32) : Vec F S4 .f32 :=
  View.canon (bodyRun c i arg1 harg1 arg2 harg2 arg3 harg3 arg4 harg4 arg5 harg5 x0 x1 x2).1

/-- `leaves` at point `t`, on the point's buffers and blocks, from output contents `Y`. -/
abbrev leavesAt (c : Dev nD) (t : Fin cfg0.N) (Y : Vec F S4 .f32) : Vec F S4 .f32 :=
  leaves c (grid0.coords t) (ms0 t) (hs0 t) (ms1 t) (hs1 t) (ms2 t) (hs2 t) rowBuf (Memref.isWhole_whole _) colBuf (Memref.isWhole_whole _)
    (iblk m c 0 t) (iblk m c 1 t) Y

/-! ## The proof data -/

/-- Relational proof data: the arrays as the region finds them; an input buffer left as found; the output
    buffer left at `leavesAt` of what was found; the invariant the two rows and the generator register. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = leavesAt m c t Y
  Φ _ := Pipeline.ΦA spec0 c
  q _ := fullShare
  owed _ := 0

theorem A_eq (c : Dev nD) (w : Fin cfg0.W) : (rdat m c).A w = V m c (Pipeline.arrRef spec0 w) := by
  dsimp only [rdat]

/-- An input buffer holds its block when the body runs: it is fetched at every point, and a fetch fills the
    whole buffer. -/
theorem finds0 (c : Dev nD) (t : Fin cfg0.N) (Y) (h : (rdat m c).Finds 0 t Y) : Y = iblk m c 0 t := by
  obtain ⟨d, rfl⟩ := ((rdat m c).finds_of_fetch (fetch0_0 t) Y).mp h
  unfold RDat.fetched RDat.blockOf iblk; rw [A_eq]; try rfl
theorem finds1 (c : Dev nD) (t : Fin cfg0.N) (Y) (h : (rdat m c).Finds 1 t Y) : Y = iblk m c 1 t := by
  obtain ⟨d, rfl⟩ := ((rdat m c).finds_of_fetch (fetch0_1 t) Y).mp h
  unfold RDat.fetched RDat.blockOf iblk; rw [A_eq]; try rfl

/-! ## The body obligation -/

theorem body_obligation (c : Dev nD) : (rdat (F := F) m c).BodyObligation (defs₀ (F := F)) Variants.none () Set.univ := fun t Y hY => by
  rw [bigSep_W0, bigSep_W0]
  have e0 := finds0 m c t (Y 0) (hY 0)
  have e1 := finds1 m c t (Y 1) (hY 1)
  show iprop((rdat m c).Φ t.castSucc ∗ (rdat m c).owesAt () t.castSucc
      ∗ owns (c : Thread nD τ) (ms0 t) fullShare (Y 0) ∗ owns (c : Thread nD τ) (ms1 t) fullShare (Y 1) ∗ owns (c : Thread nD τ) (ms2 t) fullShare (Y 2))
    ⊢ wp frame (wpE (defs₀ (F := F)) Variants.none c none) Set.univ (bodyAt0 t) (fun _ =>
      iprop((rdat m c).Φ t.succ ∗ (rdat m c).owesAt () t.succ
        ∗ (∃ X, ⌜(rdat m c).after 0 t (Y 0) X⌝ ∗ owns (c : Thread nD τ) (ms0 t) fullShare X)
        ∗ (∃ X, ⌜(rdat m c).after 1 t (Y 1) X⌝ ∗ owns (c : Thread nD τ) (ms1 t) fullShare X)
        ∗ (∃ X, ⌜(rdat m c).after 2 t (Y 2) X⌝ ∗ owns (c : Thread nD τ) (ms2 t) fullShare X)))
  rw [show (rdat m c).Φ t.succ = Pipeline.ΦA spec0 c from rfl, show (rdat m c).Φ t.castSucc = Pipeline.ΦA spec0 c from rfl,
    show (rdat m c).owesAt () t.succ = (rdat m c).owesAt () t.castSucc from rfl, inv_eq]
  unfold bodyAt0
  iintro ⟨⟨⟨HS0, HS1⟩, Hg⟩, Ho, H0, H1, H2⟩
  iapply ((bodyRun c (grid0.coords t) _ _ _ _ _ _ _ _ _ _ (Y 0) (Y 1) (Y 2)).2 Set.univ _)
  isplitl [H0]; · iexact H0
  isplitl [H1]; · iexact H1
  isplitl [H2]; · iexact H2
  isplitl [HS0]; · iexact HS0
  isplitl [HS1]; · iexact HS1
  iintro ⟨H0, H1, ⟨%e2, H2⟩, HS0, HS1⟩
  isplitl [HS0 HS1 Hg]
  · isplitl [HS0 HS1]
    · isplitl [HS0]
      · iexact HS0
      iexact HS1
    iexact Hg
  isplitl [Ho]; · iexact Ho
  isplitl [H0]
  · iexists _; isplitr; swap; · iexact H0
    ipureintro; rfl
  isplitl [H1]
  · iexists _; isplitr; swap; · iexact H1
    ipureintro; rfl
  iexists _; isplitr; swap
  · unfold owns; iexists _; isplitr; swap; · iexact H2
    ipureintro; rfl
  ipureintro
  show _ = leavesAt m c t (Y 2)
  unfold leavesAt leaves
  rw [← e0, ← e1]
  exact View.read_writes_eq_canon _ _ _ (bodyRun_cover c _ _ _ _ _ _ _ _ _ _ _ _ _ _)

/-! ## The run and the frame -/

set_option backward.isDefEq.respectTransparency.types false in
/-- Every weakly fair execution of @main terminates, with every array of the pipeline at contents its
    relation allows after the write-backs, and every other unscoped buffer as the region found it. -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hΦ := fun _ _ => rfl)

/-- The frame: the run ends with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Eq.mp (congrFun ((rdat m c).ArrAt_in 0 rfl _) _) ((h c).1 0)).trans ((A_eq m c 0).trans (V_main_arg0 m c)),
      (Eq.mp (congrFun ((rdat m c).ArrAt_in 1 rfl _) _) ((h c).1 1)).trans ((A_eq m c 1).trans (V_main_arg1 m c))⟩) (run_main m ρ)

end Cert.Kernel.Body

end
-- ==== Proof.KIBody.lean ====
/-
  The frame of the kernel, and what one grid point does to its output buffer.

  The grid has one point per batch.  At point `t` the body resets two running-minimum rows to +∞,
  sweeps the sixteen tiles of the 4096 × 4096 distance matrix of the batch, folding each tile's column
  minima and row minima into the two rows, averages each row, adds the two averages, and writes the
  sum into entry `t` of the four-entry output buffer: the other three entries are stored back as they
  were read.  The output buffer is the same at every point and is written back to its array after the
  last point only, so what the body finds there at the first point is arbitrary; nothing the body
  does depends on it except the three entries it copies.

  The proof data are therefore RELATIONAL: an input buffer is left as found, the output buffer is
  left at one function of the two input blocks and of what was found.  The body's run is one symbolic
  execution, which finds that function as the payload of the last store.
-/
import proofs.«175803_j49950469653255_1_alg».proof.Proof.Gen.KernelIdeal.Frame
import proofs.«175803_j49950469653255_1_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body is called on -/

/-- The current buffer of each window at point `t`, and that it is a whole buffer. -/
abbrev ms0 (t : Fin cfg0.N) : Memref sig .tc .vmem S1x4096x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4 .f32 := win0_2.stage (cfg0.slots t 2)
abbrev hs2 (t : Fin cfg0.N) : (ms2 t).IsWhole := hstage0_2 ((cfg0.slots t 2).cast nbuf0_2)
/-- The two running-minimum rows: whole buffers of the kernel's own. -/
abbrev rowBuf : Memref sig .tc .vmem S1x4096 .f32 := Memref.whole cc0_scratch0
abbrev colBuf : Memref sig .tc .vmem S1x4096 .f32 := Memref.whole cc0_scratch1

/-- What the region lends the body besides the windows: the two rows at any contents, and the generator register. -/
theorem inv_eq (c : Dev nD) :
    (Pipeline.ΦA spec0 c : sProp 𝕄)
      = iprop(iprop((∃ d, owns (c : Thread nD τ) rowBuf fullShare d) ∗ (∃ d, owns (c : Thread nD τ) colBuf fullShare d)) ∗ (∃ r, prngReg c r)) := by
  unfold Pipeline.ΦA; rw [scopedRest0_eq]; simp only [rowBuf, colBuf, owns_whole]; try rfl

/-! ## One run of the body -/

set_option maxHeartbeats 2000000 in
/-- On whole buffers — the two inputs at `x0`, `x1`, the output at `x2`, the two rows at anything — the body
    runs and hands back the inputs as they were, the rows at something, and the output with one store
    written over it; the store (its rectangle and its payload) is what the run finds. -/
noncomputable def bodyRun (c : Dev nD) (i : grid0.Coords) (arg1 : Memref sig .tc .vmem S1x4096x3 .f32) (harg1 : arg1.IsWhole) (arg2 : Memref sig .tc .vmem S1x4096x3 .f32) (harg2 : arg2.IsWhole) (arg3 : Memref sig .tc .vmem S4 .f32) (harg3 : arg3.IsWhole) (arg4 : Memref sig .tc .vmem S1x4096 .f32) (harg4 : arg4.IsWhole) (arg5 : Memref sig .tc .vmem S1x4096 .f32) (harg5 : arg5.IsWhole)
    (x0 : Vec F S1x4096x3 .f32) (x1 : Vec F S1x4096x3 .f32) (x2 : Vec F S4 .f32) :
    { L : List (View.Piece (Elt F) S4 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L) ∗ (∃ d, owns (c : Thread nD τ) arg4 fullShare d) ∗ (∃ d, owns (c : Thread nD τ) arg5 fullShare d)) -∗ K ⟨⟩))
          ⊢ wp frame (wpE (defs₀ (F := F)) Variants.none c none) E (cc0__chamfer_kernel i arg1 harg1 arg2 harg2 arg3 harg3 arg4 harg4 arg5 harg5) K } := by
  refine ⟨?_, fun E K => ?run⟩
  case run =>
    simp only [cc0__chamfer_kernel_eq_skeleton]; unfold cc0__chamfer_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [HS0]
    · iexists _, _; isplitr; swap; · iexact HS0
      ipureintro; rfl
    iexists _, _; isplitr; swap; · iexact HS1
    ipureintro; rfl

/-- The one store covers the four-entry buffer. -/
theorem bodyRun_cover (c : Dev nD) (i : grid0.Coords) (arg1 : Memref sig .tc .vmem S1x4096x3 .f32) (harg1 : arg1.IsWhole) (arg2 : Memref sig .tc .vmem S1x4096x3 .f32) (harg2 : arg2.IsWhole) (arg3 : Memref sig .tc .vmem S4 .f32) (harg3 : arg3.IsWhole) (arg4 : Memref sig .tc .vmem S1x4096 .f32) (harg4 : arg4.IsWhole) (arg5 : Memref sig .tc .vmem S1x4096 .f32) (harg5 : arg5.IsWhole)
    (x0 : Vec F S1x4096x3 .f32) (x1 : Vec F S1x4096x3 .f32) (x2 : Vec F S4 .f32) (y : S4.Idx) :
    ∃ pc ∈ (bodyRun c i arg1 harg1 arg2 harg2 arg3 harg3 arg4 harg4 arg5 harg5 x0 x1 x2).1, y ∈ pc.1.set :=
  View.cover_of_tiledL (bodyRun c i arg1 harg1 arg2 harg2 arg3 harg3 arg4 harg4 arg5 harg5 x0 x1 x2).1 S4.size (by sl_kernel_rfl) y

/-- What the body leaves in the output buffer: the store's payload, as contents of the four entries. -/
def leaves (c : Dev nD) (i : grid0.Coords) (arg1 : Memref sig .tc .vmem S1x4096x3 .f32) (harg1 : arg1.IsWhole) (arg2 : Memref sig .tc .vmem S1x4096x3 .f32) (harg2 : arg2.IsWhole) (arg3 : Memref sig .tc .vmem S4 .f32) (harg3 : arg3.IsWhole) (arg4 : Memref sig .tc .vmem S1x4096 .f32) (harg4 : arg4.IsWhole) (arg5 : Memref sig .tc .vmem S1x4096 .f32) (harg5 : arg5.IsWhole)
    (x0 : Vec F S1x4096x3 .f32) (x1 : Vec F S1x4096x3 .f32) (x2 : Vec F S4 .f32) : Vec F S4 .f32 :=
  View.canon (bodyRun c i arg1 harg1 arg2 harg2 arg3 harg3 arg4 harg4 arg5 harg5 x0 x1 x2).1

/-- `leaves` at point `t`, on the point's buffers and blocks, from output contents `Y`. -/
abbrev leavesAt (c : Dev nD) (t : Fin cfg0.N) (Y : Vec F S4 .f32) : Vec F S4 .f32 :=
  leaves c (grid0.coords t) (ms0 t) (hs0 t) (ms1 t) (hs1 t) (ms2 t) (hs2 t) rowBuf (Memref.isWhole_whole _) colBuf (Memref.isWhole_whole _)
    (iblk m c 0 t) (iblk m c 1 t) Y

/-! ## The proof data -/

/-- Relational proof data: the arrays as the region finds them; an input buffer left as found; the output
    buffer left at `leavesAt` of what was found; the invariant the two rows and the generator register. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = leavesAt m c t Y
  Φ _ := Pipeline.ΦA spec0 c
  q _ := fullShare
  owed _ := 0

theorem A_eq (c : Dev nD) (w : Fin cfg0.W) : (rdat m c).A w = V m c (Pipeline.arrRef spec0 w) := by
  dsimp only [rdat]

/-- An input buffer holds its block when the body runs: it is fetched at every point, and a fetch fills the
    whole buffer. -/
theorem finds0 (c : Dev nD) (t : Fin cfg0.N) (Y) (h : (rdat m c).Finds 0 t Y) : Y = iblk m c 0 t := by
  obtain ⟨d, rfl⟩ := ((rdat m c).finds_of_fetch (fetch0_0 t) Y).mp h
  unfold RDat.fetched RDat.blockOf iblk; rw [A_eq]; try rfl
theorem finds1 (c : Dev nD) (t : Fin cfg0.N) (Y) (h : (rdat m c).Finds 1 t Y) : Y = iblk m c 1 t := by
  obtain ⟨d, rfl⟩ := ((rdat m c).finds_of_fetch (fetch0_1 t) Y).mp h
  unfold RDat.fetched RDat.blockOf iblk; rw [A_eq]; try rfl

/-! ## The body obligation -/

theorem body_obligation (c : Dev nD) : (rdat (F := F) m c).BodyObligation (defs₀ (F := F)) Variants.none () Set.univ := fun t Y hY => by
  rw [bigSep_W0, bigSep_W0]
  have e0 := finds0 m c t (Y 0) (hY 0)
  have e1 := finds1 m c t (Y 1) (hY 1)
  show iprop((rdat m c).Φ t.castSucc ∗ (rdat m c).owesAt () t.castSucc
      ∗ owns (c : Thread nD τ) (ms0 t) fullShare (Y 0) ∗ owns (c : Thread nD τ) (ms1 t) fullShare (Y 1) ∗ owns (c : Thread nD τ) (ms2 t) fullShare (Y 2))
    ⊢ wp frame (wpE (defs₀ (F := F)) Variants.none c none) Set.univ (bodyAt0 t) (fun _ =>
      iprop((rdat m c).Φ t.succ ∗ (rdat m c).owesAt () t.succ
        ∗ (∃ X, ⌜(rdat m c).after 0 t (Y 0) X⌝ ∗ owns (c : Thread nD τ) (ms0 t) fullShare X)
        ∗ (∃ X, ⌜(rdat m c).after 1 t (Y 1) X⌝ ∗ owns (c : Thread nD τ) (ms1 t) fullShare X)
        ∗ (∃ X, ⌜(rdat m c).after 2 t (Y 2) X⌝ ∗ owns (c : Thread nD τ) (ms2 t) fullShare X)))
  rw [show (rdat m c).Φ t.succ = Pipeline.ΦA spec0 c from rfl, show (rdat m c).Φ t.castSucc = Pipeline.ΦA spec0 c from rfl,
    show (rdat m c).owesAt () t.succ = (rdat m c).owesAt () t.castSucc from rfl, inv_eq]
  unfold bodyAt0
  iintro ⟨⟨⟨HS0, HS1⟩, Hg⟩, Ho, H0, H1, H2⟩
  iapply ((bodyRun c (grid0.coords t) _ _ _ _ _ _ _ _ _ _ (Y 0) (Y 1) (Y 2)).2 Set.univ _)
  isplitl [H0]; · iexact H0
  isplitl [H1]; · iexact H1
  isplitl [H2]; · iexact H2
  isplitl [HS0]; · iexact HS0
  isplitl [HS1]; · iexact HS1
  iintro ⟨H0, H1, ⟨%e2, H2⟩, HS0, HS1⟩
  isplitl [HS0 HS1 Hg]
  · isplitl [HS0 HS1]
    · isplitl [HS0]
      · iexact HS0
      iexact HS1
    iexact Hg
  isplitl [Ho]; · iexact Ho
  isplitl [H0]
  · iexists _; isplitr; swap; · iexact H0
    ipureintro; rfl
  isplitl [H1]
  · iexists _; isplitr; swap; · iexact H1
    ipureintro; rfl
  iexists _; isplitr; swap
  · unfold owns; iexists _; isplitr; swap; · iexact H2
    ipureintro; rfl
  ipureintro
  show _ = leavesAt m c t (Y 2)
  unfold leavesAt leaves
  rw [← e0, ← e1]
  exact View.read_writes_eq_canon _ _ _ (bodyRun_cover c _ _ _ _ _ _ _ _ _ _ _ _ _ _)

/-! ## The run and the frame -/

set_option backward.isDefEq.respectTransparency.types false in
/-- Every weakly fair execution of @main terminates, with every array of the pipeline at contents its
    relation allows after the write-backs, and every other unscoped buffer as the region found it. -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hΦ := fun _ _ => rfl)

/-- The frame: the run ends with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Eq.mp (congrFun ((rdat m c).ArrAt_in 0 rfl _) _) ((h c).1 0)).trans ((A_eq m c 0).trans (V_main_arg0 m c)),
      (Eq.mp (congrFun ((rdat m c).ArrAt_in 1 rfl _) _) ((h c).1 1)).trans ((A_eq m c 1).trans (V_main_arg1 m c))⟩) (run_main m ρ)

end Cert.KernelIdeal.Body

end
-- ==== Proof.KIArray.lean ====
/-
  The output array after the run, as the four grid points' updates chained.

  The output buffer is never fetched and is written back to its array after the last point only, and the
  block written back is the whole array.  So the array ends at exactly what the last point left in the
  buffer.  What a point finds in the buffer is what the previous point left there, because that point did
  not write it back and this one does not fetch; the first point finds anything.  Each point leaves its own
  function of what it found.  Hence the array ends at the last point's function of the third's of the
  second's of the first's of some starting contents.
-/
import proofs.«175803_j49950469653255_1_alg».proof.Proof.KIBody

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

variable (m : (ℓ : Loc nD τ sig) → Buf (Elt F) ℓ)

/-! ## The schedule of the output window -/

/-- The output window is never fetched. -/
theorem fetch0_2 : ∀ t : Fin cfg0.N, (cfg0.win 2).fetch t = false :=
  (by decide +kernel : ∀ t : Fin grid0.N, win0_2.fetch t = false)

/-- It is written back at the last point and at no earlier one. -/
theorem flush_t3 : (cfg0.win 2).flush t0_3 = true := (flush0_2 t0_3).mpr rfl
theorem flush_t2 : (cfg0.win 2).flush t0_2 = false :=
  Bool.eq_false_iff.mpr fun h => absurd ((flush0_2 t0_2).mp h) (by decide)
theorem flush_t1 : (cfg0.win 2).flush t0_1 = false :=
  Bool.eq_false_iff.mpr fun h => absurd ((flush0_2 t0_1).mp h) (by decide)
theorem flush_t0 : (cfg0.win 2).flush t0_0 = false :=
  Bool.eq_false_iff.mpr fun h => absurd ((flush0_2 t0_0).mp h) (by decide)

/-! ## What a point finds and leaves in the output buffer -/

/-- A point after one that did not write the buffer back finds what that point left. -/
theorem leaves_pred (c : Dev nD) (t t' : Fin cfg0.N) (ht : t.val = t'.val + 1) (hfl : (cfg0.win 2).flush t' = false)
    (Y) (h : (rdat m c).Finds 2 t Y) : (rdat m c).Leaves 2 t' Y := by
  have h' := ((rdat m c).finds_of_pos (fetch0_2 t) (by omega) Y).mp h
  have e : (⟨t.val - 1, Nat.lt_of_le_of_lt (Nat.sub_le _ _) t.isLt⟩ : Fin cfg0.N) = t' := Fin.ext (by simp only [ht]; omega)
  rw [e] at h'
  rcases h' with h' | h'
  · rw [hfl] at h'; exact absurd h' Bool.false_ne_true
  · exact h'

/-- What a point may leave: its function of something it may have found. -/
theorem leaves_iff (c : Dev nD) (t : Fin cfg0.N) (X) (h : (rdat m c).Leaves 2 t X) :
    ∃ Y, (rdat m c).Finds 2 t Y ∧ X = leavesAt m c t Y := h

/-- What the last point may leave: the four points' functions chained, from some starting contents. -/
theorem leaves_t3 (c : Dev nD) (X) (h : (rdat m c).Leaves 2 t0_3 X) :
    ∃ Y0 : Vec F S4 .f32, X = leavesAt m c t0_3 (leavesAt m c t0_2 (leavesAt m c t0_1 (leavesAt m c t0_0 Y0))) := by
  obtain ⟨Y3, hF3, rfl⟩ := leaves_iff m c t0_3 X h
  obtain ⟨Y2, hF2, rfl⟩ := leaves_iff m c t0_2 Y3 (leaves_pred m c t0_3 t0_2 rfl flush_t2 Y3 hF3)
  obtain ⟨Y1, hF1, rfl⟩ := leaves_iff m c t0_1 Y2 (leaves_pred m c t0_2 t0_1 rfl flush_t1 Y2 hF2)
  obtain ⟨Y0, -, rfl⟩ := leaves_iff m c t0_0 Y1 (leaves_pred m c t0_1 t0_0 rfl flush_t0 Y1 hF1)
  exact ⟨Y0, rfl⟩

/-! ## The write-back of the last point -/

/-- The block written back at the last point is the whole array: entry k of the block lies at entry k of the array. -/
theorem emb_t3 (k : S4.Idx) : (((cfg0.win 2).blk t0_3).view.emb k : S4.Idx) = k := by
  funext a
  apply Fin.ext
  match a with
  | ⟨0, _⟩ =>
    show (0 : Nat) * 4 + 1 * (k 0).val = (k 0).val
    omega

/-- So after that write-back every entry of the array holds the buffer's entry, whatever the array held before. -/
theorem write_t3 (c : Dev nD) (G₀ : Buf (Elt F) ((cfg0.win 2).arr.view.loc (c.tc : Thread nD τ))) (X : Vec F S4 .f32) (k : S4.Idx) :
    ((cfg0.win 2).blk t0_3).view.write (Elt F) G₀ ((cfg0.win 2).cut (cfg0.grid.coords t0_3) X) Finset.univ k = X k := by
  have h := View.write_emb_of_mem (v := ((cfg0.win 2).blk t0_3).view) G₀ ((cfg0.win 2).cut (cfg0.grid.coords t0_3) X) (M := Finset.univ) (x := k) (Finset.mem_univ _)
  rw [emb_t3] at h
  exact h

/-! ## The output array after the run -/

/-- Contents the output array may hold after every write-back are the four points' functions chained, from some
    starting contents of the buffer. -/
theorem final_output (c : Dev nD) (G : Buf (Elt F) ((cfg0.spec 2).arr.view.loc (c.tc : Thread nD τ)))
    (h : (rdat m c).ArrAt 2 cfg0.N G) :
    ∃ Y0 : Vec F S4 .f32, ∀ k : S4.Idx,
      G k = leavesAt m c t0_3 (leavesAt m c t0_2 (leavesAt m c t0_1 (leavesAt m c t0_0 Y0))) k := by
  have h4 : (rdat m c).ArrAt 2 (t0_3.val + 1) G := by
    have e : cfg0.N = t0_3.val + 1 := N_0
    rw [← e]; exact h
  rw [RDat.ArrAt_succ, if_pos flush_t3] at h4
  obtain ⟨G₀, X, -, hX, rfl⟩ := h4
  obtain ⟨Y0, rfl⟩ := leaves_t3 m c X hX
  exact ⟨Y0, fun k => write_t3 c G₀ _ k⟩

end Cert.KernelIdeal.Body

end
-- ==== Proof.Tile.lean ====
/-
  One tile of the pairwise-distance sweep, written once.

  The body holds the batch's `x` block (4096 points) transposed to coordinate-major form with its row of
  squared norms, and one tile of 1024 points of `y` with its column of squared norms.  For a tile of 1024
  points of `x` starting at column `oj` it forms, for row `p` and column `q`,
  `√ max(|y_p|² + |x_{oj+q}|² − 2·(y_p · x_{oj+q}), 0)`, the inner product spelt coordinate by coordinate.
  The tile's column minima are folded into a slice of one running row, its row minima into a slice of
  another.  Every one of the sixteen tiles of the printed body is an instance of these definitions.
-/
import proofs.«175803_j49950469653255_1_alg».proof.Proof.Gen.KernelIdeal

noncomputable section

namespace Cert.KernelIdeal.Tile

open Cert.KernelIdeal Idealize.ShloMosaic
open Cert.KernelIdeal.Facts₀

variable {F : FTy → Type} [FloatOps F]

/-- The `x` block, coordinate-major: row `d` holds coordinate `d` of the 4096 points. -/
def xT (xv : Vec F S1x4096x3 .f32) : FVec F S3x4096 .f32 :=
  transpose S3x4096 [1, 0] (shapeCast S4096x3 xv shapeCasts_S1x4096x3_S4096x3) transposes_S4096x3_p1_0_S3x4096

/-- The row of squared norms of the `x` points. -/
def xSq (xv : Vec F S1x4096x3 .f32) : FVec F S1x4096 .f32 :=
  shapeCast S1x4096 (multiReduction .add [0] S4096 (mulf (xT xv) (xT xv)) 0x00000000#32 reduces_S3x4096_S4096 (.inl rfl) rfl) shapeCasts_S4096_S1x4096

/-- A tile of 1024 points of `y`, point-major. -/
def yM (yv : Vec F S1x1024x3 .f32) : FVec F S1024x3 .f32 := shapeCast S1024x3 yv shapeCasts_S1x1024x3_S1024x3

/-- The column of squared norms of the tile's `y` points. -/
def ySq (yv : Vec F S1x1024x3 .f32) : FVec F S1024x1 .f32 :=
  shapeCast S1024x1 (multiReduction .add [1] S1024 (mulf (yM yv) (yM yv)) 0x00000000#32 reduces_S1024x3_S1024 (.inl rfl) rfl) shapeCasts_S1024_S1024x1

/-- Coordinate `d` of every `y` point of the tile times coordinate `d` of every `x` point of the tile. -/
def prod (d : ℕ) (hy : S1024x3.Slices ![0, d] S1024x1) (hx : S3x1024.Slices ![d, 0] S1x1024)
    (xs : FVec F S3x1024 .f32) (ym : FVec F S1024x3 .f32) : FVec F S1024x1024 .f32 :=
  mulf (broadcastTo S1024x1024 (extractStridedSlice S1024x1 ![0, d] ym hy) broadcasts_S1024x1_S1024x1024)
    (broadcastTo S1024x1024 (extractStridedSlice S1x1024 ![d, 0] xs hx) broadcasts_S1x1024_S1024x1024)

/-- The inner products of the tile: coordinate 0, plus coordinate 1, plus coordinate 2. -/
def cross (xs : FVec F S3x1024 .f32) (ym : FVec F S1024x3 .f32) : FVec F S1024x1024 .f32 :=
  addf (addf (prod 0 slices_S1024x3_o0_0_S1024x1 slices_S3x1024_o0_0_S1x1024 xs ym)
      (prod 1 slices_S1024x3_o0_1_S1024x1 slices_S3x1024_o1_0_S1x1024 xs ym))
    (prod 2 slices_S1024x3_o0_2_S1024x1 slices_S3x1024_o2_0_S1x1024 xs ym)

/-- The tile of distances between the tile's `y` points (rows) and the `x` points from column `oj` on (columns). -/
def tile (oj : ℕ) (h1 : S1x4096.Slices ![0, oj] S1x1024) (h3 : S3x4096.Slices ![0, oj] S3x1024)
    (xv : Vec F S1x4096x3 .f32) (yv : Vec F S1x1024x3 .f32) : FVec F S1024x1024 .f32 :=
  sqrt (maximumf
    (subf
      (addf (broadcastTo S1024x1024 (ySq yv) broadcasts_S1024x1_S1024x1024)
        (broadcastTo S1024x1024 (extractStridedSlice S1x1024 ![0, oj] (xSq xv) h1) broadcasts_S1x1024_S1024x1024))
      (mulf (broadcast S1024x1024 (Scalar.ofBits .f32 0x40000000#32))
        (cross (extractStridedSlice S3x1024 ![0, oj] (xT xv) h3) (yM yv))))
    (broadcast S1024x1024 (Scalar.ofBits .f32 0x00000000#32)))

/-- The minimum of each column of a tile, as a row. -/
def colMin (T : FVec F S1024x1024 .f32) : FVec F S1x1024 .f32 :=
  shapeCast S1x1024 (multiReduction .minimumf [0] S1024 T 0x7F800000#32 reduces_S1024x1024_S1024 (.inl rfl) rfl) shapeCasts_S1024_S1x1024

/-- The minimum of each row of a tile, as a row. -/
def rowMin (T : FVec F S1024x1024 .f32) : FVec F S1x1024 .f32 :=
  transpose S1x1024 [1, 0]
    (shapeCast S1024x1 (multiReduction .minimumf [1] S1024 T 0x7F800000#32 reduces_S1024x1024_S1024_2 (.inl rfl) rfl) shapeCasts_S1024_S1024x1)
    transposes_S1024x1_p1_0_S1x1024

/-- A slice of a running row folded with a tile's contribution: the entrywise minimum. -/
def fold (v : Vec F S1x1024 .f32) (cmin : FVec F S1x1024 .f32) : FVec F S1x1024 .f32 :=
  shapeCast S1x1024 (minimumf v cmin) shapeCasts_S1x1024_S1x1024

/-- A running row before any tile: +∞ everywhere. -/
def top : FVec F S1x4096 .f32 :=
  shapeCast S1x4096 (broadcast S1x4096 (Scalar.ofBits .f32 0x7F800000#32)) shapeCasts_S1x4096_S1x4096

/-- The mean of a row of 4096 entries, as a one-by-one array. -/
def mean (v : Vec F S1x4096 .f32) : FVec F S1x1 .f32 :=
  divf (shapeCast S1x1 (multiReduction .add [1] S1 v 0x00000000#32 reduces_S1x4096_S1 (.inl rfl) rfl) shapeCasts_S1_S1x1)
    (broadcast S1x1 (Scalar.ofBits .f32 0x45800000#32))

/-- The last store's payload: entry `b` of the four becomes the sum of the two means, the others are kept. -/
def result (b : BitVec 32) (colRow rowRow : Vec F S1x4096 .f32) (old : Vec F S4 .f32) : FVec F S4 .f32 :=
  select (cmpi .eq (shapeCast S4 (iota .tc S1x4 32 [1] iota_S1x4_d1_w32) shapeCasts_S1x4_S4) (broadcast S4 b))
    (broadcast S4 (extractAt ![0, 0] (addf (mean colRow) (mean rowRow)) inpos_S1x1_p0_0))
    (shapeCast S4 old shapeCasts_S4_S4)

end Cert.KernelIdeal.Tile

end
-- ==== Proof.Sweep.lean ====
/-
  The sweep over the sixteen tiles, read off the body's run.

  The run leaves each running row as a list of stores, newest first: one store of +∞ over the whole
  row, then one store per tile over the slice of 1024 entries the tile touches, its payload the
  entrywise minimum of what the slice held and the tile's column (or row) minima.  Tile number
  `n = 4·ti + tj` pairs the `y` points `1024·ti …` with the `x` points `1024·tj …`.  Here each of the
  thirty-four lists the run found is recognised as that one shape; the arithmetic is in the tile.
-/
import proofs.«175803_j49950469653255_1_alg».proof.Proof.KIBody
import proofs.«175803_j49950469653255_1_alg».proof.Proof.Tile
import Idealize.ShloMosaic.Lib.ValueIdx
import Idealize.ShloMosaic.Lib.Pipeline.Value

set_option maxRecDepth 16384

noncomputable section

namespace Cert.KernelIdeal.Sweep

open Cert.KernelIdeal Cert.KernelIdeal.Tile Cert.KernelIdeal.Body
open Idealize.ShloMosaic Idealize.ShloMosaic.TcCoe Idealize.ShloMosaic.ValueIdx
open Cert.KernelIdeal.Facts₀

/-! ## Offsets of the four tiles along either axis -/

/-- Where tile `k` of four starts along an axis of 4096. -/
def offs : Fin 4 → ℕ
  | 0 => 0 | 1 => 1024 | 2 => 2048 | 3 => 3072

theorem offs_eq (k : Fin 4) : offs k = 1024 * k.val := by
  match k with
  | 0 => rfl | 1 => rfl | 2 => rfl | 3 => rfl

theorem sliceRow : (k : Fin 4) → S1x4096.Slices ![0, offs k] S1x1024
  | 0 => slices_S1x4096_o0_0_S1x1024 | 1 => slices_S1x4096_o0_1024_S1x1024
  | 2 => slices_S1x4096_o0_2048_S1x1024 | 3 => slices_S1x4096_o0_3072_S1x1024
theorem sliceT : (k : Fin 4) → S3x4096.Slices ![0, offs k] S3x1024
  | 0 => slices_S3x4096_o0_0_S3x1024 | 1 => slices_S3x4096_o0_1024_S3x1024
  | 2 => slices_S3x4096_o0_2048_S3x1024 | 3 => slices_S3x4096_o0_3072_S3x1024
theorem inbRow : (k : Fin 4) → ∀ a, (![0, offs k] : Fin 2 → ℕ) a + S1x1024.size a ≤ S1x4096.size a
  | 0 => inb_S1x4096_S1x1024_0_0 | 1 => inb_S1x4096_S1x1024_0_1024 | 2 => inb_S1x4096_S1x1024_0_2048 | 3 => inb_S1x4096_S1x1024_0_3072
theorem inbPts : (k : Fin 4) → ∀ a, (![0, offs k, 0] : Fin 3 → ℕ) a + S1x1024x3.size a ≤ S1x4096x3.size a
  | 0 => inb_S1x4096x3_S1x1024x3_0_0_0 | 1 => inb_S1x4096x3_S1x1024x3_0_1024_0 | 2 => inb_S1x4096x3_S1x1024x3_0_2048_0 | 3 => inb_S1x4096x3_S1x1024x3_0_3072_0

/-! ## The loaded blocks and the tiles -/

section
variable (arg1 : Memref sig .tc .vmem S1x4096x3 .f32) (harg1 : arg1.IsWhole) (arg2 : Memref sig .tc .vmem S1x4096x3 .f32) (harg2 : arg2.IsWhole)
variable (x0 x1 : Vec Ideal S1x4096x3 .f32)

/-- The `x` block as the body loads it. -/
abbrev xLoad : Vec Ideal S1x4096x3 .f32 :=
  View.readAt (Elt Ideal) arg1.view (Rect.unit (s := S1x4096x3) ![0, 0, 0] S1x4096x3.size inb_S1x4096x3_S1x4096x3_0_0_0).toLoadRect (harg1.unread x0)
/-- Tile `k` of the `y` block as the body loads it: 1024 points from `offs k`. -/
abbrev yLoad (k : Fin 4) : Vec Ideal S1x1024x3 .f32 :=
  View.readAt (Elt Ideal) arg2.view (Rect.unit (s := S1x4096x3) ![0, offs k, 0] S1x1024x3.size (inbPts k)).toLoadRect (harg2.unread x1)

/-- The tile of distances between `y` tile `ti` and `x` tile `tj`. -/
def D (ti tj : Fin 4) : FVec Ideal S1024x1024 .f32 :=
  tile (F := Ideal) (offs tj) (sliceRow tj) (sliceT tj) (xLoad arg1 harg1 x0) (yLoad arg2 harg2 x1 ti)

/-- The slice of a running row that tile column (or row) `k` touches. -/
abbrev slot (k : Fin 4) : Rect S1x4096 := Rect.unit (s := S1x4096) ![0, offs k] S1x1024.size (inbRow k)

/-- The store tile `(ti, tj)` makes into the row of column minima, over the list `L` of earlier stores. -/
def colPiece (arg5 : Memref sig .tc .vmem S1x4096 .f32) (ti tj : Fin 4) (L : List (View.Piece (Elt Ideal) S1x4096 .f32)) :
    List (View.Piece (Elt Ideal) S1x4096 .f32) :=
  ⟨slot tj, fold (F := Ideal) (arg5.view.readCov L (slot tj).toLoadRect) (colMin (F := Ideal) (D arg1 harg1 arg2 harg2 x0 x1 ti tj))⟩ :: L

/-- The store tile `(ti, tj)` makes into the row of row minima. -/
def rowPiece (arg4 : Memref sig .tc .vmem S1x4096 .f32) (ti tj : Fin 4) (L : List (View.Piece (Elt Ideal) S1x4096 .f32)) :
    List (View.Piece (Elt Ideal) S1x4096 .f32) :=
  ⟨slot ti, fold (F := Ideal) (arg4.view.readCov L (slot ti).toLoadRect) (rowMin (F := Ideal) (D arg1 harg1 arg2 harg2 x0 x1 ti tj))⟩ :: L

/-! ## The lists the run found are these -/

variable (c : Dev nD) (arg4 arg5 : Memref sig .tc .vmem S1x4096 .f32)

theorem colList_init : bodyRun.sl.HS1_1 (F := Ideal) = [⟨Rect.unit (s := S1x4096) ![0, 0] S1x4096.size inb_S1x4096_S1x4096_0_0, top (F := Ideal)⟩] := rfl
theorem rowList_init : bodyRun.sl.HS0_1 (F := Ideal) = [⟨Rect.unit (s := S1x4096) ![0, 0] S1x4096.size inb_S1x4096_S1x4096_0_0, top (F := Ideal)⟩] := rfl
theorem colList_0 : bodyRun.sl.HS1_2 (F := Ideal) c arg1 harg1 arg2 harg2 arg5 x0 x1 = colPiece arg1 harg1 arg2 harg2 x0 x1 arg5 0 0 (bodyRun.sl.HS1_1 (F := Ideal)) := rfl
theorem rowList_0 : bodyRun.sl.HS0_2 (F := Ideal) c arg1 harg1 arg2 harg2 arg4 x0 x1 = rowPiece arg1 harg1 arg2 harg2 x0 x1 arg4 0 0 (bodyRun.sl.HS0_1 (F := Ideal)) := rfl
theorem colList_1 : bodyRun.sl.HS1_3 (F := Ideal) c arg1 harg1 arg2 harg2 arg5 x0 x1 = colPiece arg1 harg1 arg2 harg2 x0 x1 arg5 0 1 (bodyRun.sl.HS1_2 c arg1 harg1 arg2 harg2 arg5 x0 x1) := rfl
theorem rowList_1 : bodyRun.sl.HS0_3 (F := Ideal) c arg1 harg1 arg2 harg2 arg4 x0 x1 = rowPiece arg1 harg1 arg2 harg2 x0 x1 arg4 0 1 (bodyRun.sl.HS0_2 c arg1 harg1 arg2 harg2 arg4 x0 x1) := rfl
theorem colList_2 : bodyRun.sl.HS1_4 (F := Ideal) c arg1 harg1 arg2 harg2 arg5 x0 x1 = colPiece arg1 harg1 arg2 harg2 x0 x1 arg5 0 2 (bodyRun.sl.HS1_3 c arg1 harg1 arg2 harg2 arg5 x0 x1) := rfl
theorem rowList_2 : bodyRun.sl.HS0_4 (F := Ideal) c arg1 harg1 arg2 harg2 arg4 x0 x1 = rowPiece arg1 harg1 arg2 harg2 x0 x1 arg4 0 2 (bodyRun.sl.HS0_3 c arg1 harg1 arg2 harg2 arg4 x0 x1) := rfl
theorem colList_3 : bodyRun.sl.HS1_5 (F := Ideal) c arg1 harg1 arg2 harg2 arg5 x0 x1 = colPiece arg1 harg1 arg2 harg2 x0 x1 arg5 0 3 (bodyRun.sl.HS1_4 c arg1 harg1 arg2 harg2 arg5 x0 x1) := rfl
theorem rowList_3 : bodyRun.sl.HS0_5 (F := Ideal) c arg1 harg1 arg2 harg2 arg4 x0 x1 = rowPiece arg1 harg1 arg2 harg2 x0 x1 arg4 0 3 (bodyRun.sl.HS0_4 c arg1 harg1 arg2 harg2 arg4 x0 x1) := rfl
theorem colList_4 : bodyRun.sl.HS1_6 (F := Ideal) c arg1 harg1 arg2 harg2 arg5 x0 x1 = colPiece arg1 harg1 arg2 harg2 x0 x1 arg5 1 0 (bodyRun.sl.HS1_5 c arg1 harg1 arg2 harg2 arg5 x0 x1) := rfl
theorem rowList_4 : bodyRun.sl.HS0_6 (F := Ideal) c arg1 harg1 arg2 harg2 arg4 x0 x1 = rowPiece arg1 harg1 arg2 harg2 x0 x1 arg4 1 0 (bodyRun.sl.HS0_5 c arg1 harg1 arg2 harg2 arg4 x0 x1) := rfl
theorem colList_5 : bodyRun.sl.HS1_7 (F := Ideal) c arg1 harg1 arg2 harg2 arg5 x0 x1 = colPiece arg1 harg1 arg2 harg2 x0 x1 arg5 1 1 (bodyRun.sl.HS1_6 c arg1 harg1 arg2 harg2 arg5 x0 x1) := rfl
theorem rowList_5 : bodyRun.sl.HS0_7 (F := Ideal) c arg1 harg1 arg2 harg2 arg4 x0 x1 = rowPiece arg1 harg1 arg2 harg2 x0 x1 arg4 1 1 (bodyRun.sl.HS0_6 c arg1 harg1 arg2 harg2 arg4 x0 x1) := rfl
theorem colList_6 : bodyRun.sl.HS1_8 (F := Ideal) c arg1 harg1 arg2 harg2 arg5 x0 x1 = colPiece arg1 harg1 arg2 harg2 x0 x1 arg5 1 2 (bodyRun.sl.HS1_7 c arg1 harg1 arg2 harg2 arg5 x0 x1) := rfl
theorem rowList_6 : bodyRun.sl.HS0_8 (F := Ideal) c arg1 harg1 arg2 harg2 arg4 x0 x1 = rowPiece arg1 harg1 arg2 harg2 x0 x1 arg4 1 2 (bodyRun.sl.HS0_7 c arg1 harg1 arg2 harg2 arg4 x0 x1) := rfl
theorem colList_7 : bodyRun.sl.HS1_9 (F := Ideal) c arg1 harg1 arg2 harg2 arg5 x0 x1 = colPiece arg1 harg1 arg2 harg2 x0 x1 arg5 1 3 (bodyRun.sl.HS1_8 c arg1 harg1 arg2 harg2 arg5 x0 x1) := rfl
theorem rowList_7 : bodyRun.sl.HS0_9 (F := Ideal) c arg1 harg1 arg2 harg2 arg4 x0 x1 = rowPiece arg1 harg1 arg2 harg2 x0 x1 arg4 1 3 (bodyRun.sl.HS0_8 c arg1 harg1 arg2 harg2 arg4 x0 x1) := rfl
theorem colList_8 : bodyRun.sl.HS1_10 (F := Ideal) c arg1 harg1 arg2 harg2 arg5 x0 x1 = colPiece arg1 harg1 arg2 harg2 x0 x1 arg5 2 0 (bodyRun.sl.HS1_9 c arg1 harg1 arg2 harg2 arg5 x0 x1) := rfl
theorem rowList_8 : bodyRun.sl.HS0_10 (F := Ideal) c arg1 harg1 arg2 harg2 arg4 x0 x1 = rowPiece arg1 harg1 arg2 harg2 x0 x1 arg4 2 0 (bodyRun.sl.HS0_9 c arg1 harg1 arg2 harg2 arg4 x0 x1) := rfl
theorem colList_9 : bodyRun.sl.HS1_11 (F := Ideal) c arg1 harg1 arg2 harg2 arg5 x0 x1 = colPiece arg1 harg1 arg2 harg2 x0 x1 arg5 2 1 (bodyRun.sl.HS1_10 c arg1 harg1 arg2 harg2 arg5 x0 x1) := rfl
theorem rowList_9 : bodyRun.sl.HS0_11 (F := Ideal) c arg1 harg1 arg2 harg2 arg4 x0 x1 = rowPiece arg1 harg1 arg2 harg2 x0 x1 arg4 2 1 (bodyRun.sl.HS0_10 c arg1 harg1 arg2 harg2 arg4 x0 x1) := rfl
theorem colList_10 : bodyRun.sl.HS1_12 (F := Ideal) c arg1 harg1 arg2 harg2 arg5 x0 x1 = colPiece arg1 harg1 arg2 harg2 x0 x1 arg5 2 2 (bodyRun.sl.HS1_11 c arg1 harg1 arg2 harg2 arg5 x0 x1) := rfl
theorem rowList_10 : bodyRun.sl.HS0_12 (F := Ideal) c arg1 harg1 arg2 harg2 arg4 x0 x1 = rowPiece arg1 harg1 arg2 harg2 x0 x1 arg4 2 2 (bodyRun.sl.HS0_11 c arg1 harg1 arg2 harg2 arg4 x0 x1) := rfl
theorem colList_11 : bodyRun.sl.HS1_13 (F := Ideal) c arg1 harg1 arg2 harg2 arg5 x0 x1 = colPiece arg1 harg1 arg2 harg2 x0 x1 arg5 2 3 (bodyRun.sl.HS1_12 c arg1 harg1 arg2 harg2 arg5 x0 x1) := rfl
theorem rowList_11 : bodyRun.sl.HS0_13 (F := Ideal) c arg1 harg1 arg2 harg2 arg4 x0 x1 = rowPiece arg1 harg1 arg2 harg2 x0 x1 arg4 2 3 (bodyRun.sl.HS0_12 c arg1 harg1 arg2 harg2 arg4 x0 x1) := rfl
theorem colList_12 : bodyRun.sl.HS1_14 (F := Ideal) c arg1 harg1 arg2 harg2 arg5 x0 x1 = colPiece arg1 harg1 arg2 harg2 x0 x1 arg5 3 0 (bodyRun.sl.HS1_13 c arg1 harg1 arg2 harg2 arg5 x0 x1) := rfl
theorem rowList_12 : bodyRun.sl.HS0_14 (F := Ideal) c arg1 harg1 arg2 harg2 arg4 x0 x1 = rowPiece arg1 harg1 arg2 harg2 x0 x1 arg4 3 0 (bodyRun.sl.HS0_13 c arg1 harg1 arg2 harg2 arg4 x0 x1) := rfl
theorem colList_13 : bodyRun.sl.HS1_15 (F := Ideal) c arg1 harg1 arg2 harg2 arg5 x0 x1 = colPiece arg1 harg1 arg2 harg2 x0 x1 arg5 3 1 (bodyRun.sl.HS1_14 c arg1 harg1 arg2 harg2 arg5 x0 x1) := rfl
theorem rowList_13 : bodyRun.sl.HS0_15 (F := Ideal) c arg1 harg1 arg2 harg2 arg4 x0 x1 = rowPiece arg1 harg1 arg2 harg2 x0 x1 arg4 3 1 (bodyRun.sl.HS0_14 c arg1 harg1 arg2 harg2 arg4 x0 x1) := rfl
theorem colList_14 : bodyRun.sl.HS1_16 (F := Ideal) c arg1 harg1 arg2 harg2 arg5 x0 x1 = colPiece arg1 harg1 arg2 harg2 x0 x1 arg5 3 2 (bodyRun.sl.HS1_15 c arg1 harg1 arg2 harg2 arg5 x0 x1) := rfl
theorem rowList_14 : bodyRun.sl.HS0_16 (F := Ideal) c arg1 harg1 arg2 harg2 arg4 x0 x1 = rowPiece arg1 harg1 arg2 harg2 x0 x1 arg4 3 2 (bodyRun.sl.HS0_15 c arg1 harg1 arg2 harg2 arg4 x0 x1) := rfl
theorem colList_15 : bodyRun.sl.HS1_17 (F := Ideal) c arg1 harg1 arg2 harg2 arg5 x0 x1 = colPiece arg1 harg1 arg2 harg2 x0 x1 arg5 3 3 (bodyRun.sl.HS1_16 c arg1 harg1 arg2 harg2 arg5 x0 x1) := rfl
theorem rowList_15 : bodyRun.sl.HS0_17 (F := Ideal) c arg1 harg1 arg2 harg2 arg4 x0 x1 = rowPiece arg1 harg1 arg2 harg2 x0 x1 arg4 3 3 (bodyRun.sl.HS0_16 c arg1 harg1 arg2 harg2 arg4 x0 x1) := rfl

/-- The last store's payload: the result of the two rows as the run reads them back, over what the output held. -/
theorem payload_eq (i : grid0.Coords) (arg3 : Memref sig .tc .vmem S4 .f32) (harg3 : arg3.IsWhole) (x2 : Vec Ideal S4 .f32) :
    bodyRun.sl.r_37 (F := Ideal) c i arg1 harg1 arg2 harg2 arg3 harg3 arg4 arg5 x0 x1 x2
      = result (F := Ideal) (BitVec.ofNat 32 (i 0).val)
          (arg5.view.readCov (bodyRun.sl.HS1_17 (F := Ideal) c arg1 harg1 arg2 harg2 arg5 x0 x1) (Rect.unit (s := S1x4096) ![0, 0] S1x4096.size inb_S1x4096_S1x4096_0_0).toLoadRect)
          (arg4.view.readCov (bodyRun.sl.HS0_17 (F := Ideal) c arg1 harg1 arg2 harg2 arg4 x0 x1) (Rect.unit (s := S1x4096) ![0, 0] S1x4096.size inb_S1x4096_S1x4096_0_0).toLoadRect)
          (View.readAt (Elt Ideal) arg3.view (Rect.unit (s := S4) ![0] S4.size inb_S4_S4_0).toLoadRect (harg3.unread x2)) := rfl

end

end Cert.KernelIdeal.Sweep

end
-- ==== Proof.LibColumns.lean ====
/-
  Layout operations around a `keepdims` column, read at an index given by coordinates, at any extents:
  a vector `[a]` recast as the column `[a, 1]`; a column `[a, 1]` broadcast along its rows to `[a, b]`; a matrix
  `[a, b]` recast with a trailing unit axis, `[a, b, 1]`; two such arrays joined along that axis into `[a, b, 2]`
  (a stack of two columns); and, over the extended reals, the lane sum of a matrix along its second axis read as the
  sum of one row. Each is the general read-at-an-index lemma of the value library with the index arithmetic done.
-/
import Idealize.ShloMosaic.Lib.Pipeline.Value
import Idealize.ShloMosaic.Lib.ValueIdx
import Idealize.ShloMosaic.PureOps.Ideal.Laws

open scoped BigOperators

namespace Cert.Lib.Columns

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(p, c, u)`, the operand at `(p, c)`: both have row-major position
    `p · b + c`. -/
theorem shapeCast_ab_ab1_apply {a b : ℕ} (x : (⟨2, ![a, b]⟩ : Shape).Idx → α) (h : (⟨2, ![a, b]⟩ : Shape).ShapeCasts ⟨3, ![a, b, 1]⟩)
    (p : Fin a) (c : Fin b) (u : Fin 1) : shapeCast ⟨3, ![a, b, 1]⟩ x h (ix3 p c u) = x (ix2 p c) :=
  shapeCast_apply x h _ _ (by
    have hu : u.val = 0 := by omega
    rw [Shape.rowMajor_val_two, Shape.rowMajor_val_three]
    show p.val * b + c.val = (p.val * b + c.val) * 1 + u.val
    rw [hu, Nat.mul_one, Nat.add_zero])

/-- Two `[a, b, 1]` arrays joined along the last axis into `[a, b, 2]`: at `(p, c, l)` the first array's entry at `(p, c)`
    when `l` is `0`, the second's when `l` is `1` — the last coordinate selects the array, the others pass through. -/
theorem concatenate_ab1_ab1_apply {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ (2 : Fin 3)) (p : Fin a) (c : Fin b) (l : Fin 2) :
    concatenate ⟨3, ![a, b, 2]⟩ (2 : Fin 3) [⟨⟨3, ![a, b, 1]⟩, x₁⟩, ⟨⟨3, ![a, b, 1]⟩, x₂⟩] h (ix3 p c l)
      = if l.val = 0 then x₁ (ix3 p c (0 : Fin 1)) else x₂ (ix3 p c (0 : Fin 1)) := by
  match l with
  | ⟨0, h0⟩ =>
    refine (concatenate_pair_apply_left (t := ⟨3, ![a, b, 2]⟩) (2 : Fin 3) x₁ x₂ h (ix3 p c (⟨0, h0⟩ : Fin 2)) rfl
      (ix3 p c (0 : Fin 1)) (fun bx => by
        match bx with | ⟨0, _⟩ => rfl | ⟨1, _⟩ => rfl | ⟨2, _⟩ => rfl)).trans ?_
    exact (if_pos rfl).symm
  | ⟨1, h1⟩ =>
    refine (concatenate_pair_apply_right (t := ⟨3, ![a, b, 2]⟩) (2 : Fin 3) x₁ x₂ h (ix3 p c (⟨1, h1⟩ : Fin 2)) rfl rfl
      (ix3 p c (0 : Fin 1)) (fun bx hb => by
        match bx with | ⟨0, _⟩ => rfl | ⟨1, _⟩ => rfl | ⟨2, _⟩ => exact absurd rfl hb) rfl).trans ?_
    exact (if_neg Nat.one_ne_zero).symm

/-- Over the extended reals, the lane sum of an `[a, b]` array along its second axis is, at row `r`, the sum of that
    row's `b` entries: the index the reduction inserts coordinate `k` into is `(r, k)`. -/
theorem multiReduction_add_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (r : Fin a) :
    multiReduction .add [(1 : Fin 2)] ⟨1, ![a]⟩ src acc h hφ hacc (ix1 r) = ∑ k : Fin b, src (ix2 r k) := by
  rw [Ideal.multiReduction_add_single]
  exact Finset.sum_congr rfl fun k _ => congrArg src (funext fun c => Fin.ext (by
    match c with | ⟨0, _⟩ => rfl | ⟨1, _⟩ => rfl))

end Cert.Lib.Columns
-- ==== Proof.LibPlaneSums.lean ====
/-
  Sums over a plane, and a comparison's bit as a float, at any extents, over the extended reals:
  the lane sum of a matrix `[a, b]` along its FIRST axis read at a column as the sum of that column's entries; the host's
  sum of an `[A, C, D]` array over its last two axes read at `a` as the initial value plus the double sum over the plane
  `a`; and the two ways a one-bit comparison result becomes the float 0 or 1 — widened to 32 bits and read as a signed
  integer, or read as an unsigned integer — are one value.
-/
import Idealize.ShloMosaic.Lib.ValueIdx
import Idealize.ShloMosaic.PureOps.Ideal.Laws

open scoped BigOperators

noncomputable section

namespace Cert.Lib.PlaneSums

open Idealize.ShloMosaic Idealize.ShloMosaic.ValueIdx

/-- A one-bit word widened to 32 bits and read as a signed integer is the bit read as a natural number: the two ways a
    comparison's result becomes the float 0 or 1. -/
theorem bit_sitofp_eq_uitofp (w : BitVec 1) :
    FloatOps.sitofp (F := Ideal) .f32 (w.setWidth 32) = FloatOps.uitofp (F := Ideal) .f32 w := by
  show (((w.setWidth 32).toInt : ℝ) : EReal) = ((w.toNat : ℝ) : EReal)
  have h : ∀ w : BitVec 1, (w.setWidth 32).toInt = (w.toNat : ℤ) := by decide
  rw [h w, Int.cast_natCast]

/-- The lane sum of an `[a, b]` array along its FIRST axis is, at column `c`, the sum of that column's `a` entries. -/
theorem multiReduction_add_ab_b_apply {φ : FTy} {a b : ℕ} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ)
    (c : Fin b) :
    multiReduction .add [(0 : Fin 2)] ⟨1, ![b]⟩ src acc h hφ hacc (ix1 c) = ∑ k : Fin a, src (ix2 k c) := by
  rw [Ideal.multiReduction_add_single]
  exact Finset.sum_congr rfl fun k _ => congrArg src (funext fun d => Fin.ext (by
    match d with | ⟨0, _⟩ => rfl | ⟨1, _⟩ => rfl))

/-- The host's sum of an `[A, C, D]` array over its last two axes is, at `a`, the initial value plus the double sum over
    the plane `a`. -/
theorem hostReduceAdd_plane_apply {A C D : ℕ} (x : (⟨3, ![A, C, D]⟩ : Shape).Idx → EReal) (init : EReal)
    (h' : (⟨3, ![A, C, D]⟩ : Shape).ReducesTo [(1 : Fin 3), 2] ⟨1, ![A]⟩) (a : Fin A) :
    Ideal.hostReduceAdd h' x init (ix1 a) = init + ∑ p : Fin C, ∑ q : Fin D, x (ix3 a p q) := by
  unfold Ideal.hostReduceAdd
  refine congrArg (init + ·) ?_
  have hdrop : ∀ i : (⟨3, ![A, C, D]⟩ : Shape).Idx, h'.drop i = ix1 a ↔ (i 0).val = a.val := by
    intro i
    constructor
    · intro e
      have e0 : (h'.drop i 0).val = a.val := congrArg (fun j : (⟨1, ![A]⟩ : Shape).Idx => (j 0).val) e
      exact e0
    · intro e0
      funext ax
      apply Fin.ext
      match ax with
      | ⟨0, _⟩ => exact e0
  rw [← Finset.sum_product']
  refine Finset.sum_nbij' (fun i => ((⟨(i 1).val, (i 1).isLt⟩ : Fin C), (⟨(i 2).val, (i 2).isLt⟩ : Fin D)))
    (fun pq => ix3 a pq.1 pq.2) (fun _ _ => Finset.mem_product.mpr ⟨Finset.mem_univ _, Finset.mem_univ _⟩) ?_ ?_ ?_ ?_
  · intro pq _
    exact Finset.mem_filter.mpr ⟨Finset.mem_univ _, (hdrop _).mpr rfl⟩
  · intro i hi
    have e0 := (hdrop i).mp (Finset.mem_filter.mp hi).2
    funext ax
    apply Fin.ext
    match ax with
    | ⟨0, _⟩ => show a.val = (i 0).val; exact e0.symm
    | ⟨1, _⟩ => rfl
    | ⟨2, _⟩ => rfl
  · intro pq _
    rfl
  · intro i hi
    have e0 := (hdrop i).mp (Finset.mem_filter.mp hi).2
    refine congrArg x ?_
    funext ax
    apply Fin.ext
    match ax with
    | ⟨0, _⟩ => show (i 0).val = a.val; exact e0
    | ⟨1, _⟩ => rfl
    | ⟨2, _⟩ => rfl

end Cert.Lib.PlaneSums

end
-- ==== Proof.LibMinReduce.lean ====
/-
  A minimum along one axis read at an index given by coordinates, over the extended reals, at any extents.

  A lane minimum of a matrix `[a, b]` along its second axis (a row's least entry) or along its first axis (a column's
  least entry), and a one-operand reduction by `min` of an array `[a, b, c]` from an initial value along its last axis
  or along its middle axis, are each the fold of `min` from the accumulator's (respectively the initial) value over the
  reduced axis's coordinates: the index the reduction inserts coordinate `k` into is `(r, k)`, `(k, c)`, `(p, r, k)`,
  `(p, k, c)` respectively. The first statement is the general one, at any rank and axis, with the inserted index left
  as the reduction's own `lift`.
-/
import Idealize.ShloMosaic.Lib.ValueIdx
import Idealize.ShloMosaic.PureOps.Ideal.Laws

open scoped BigOperators

namespace Cert.Lib.MinReduce

open Idealize.ShloMosaic Idealize.ShloMosaic.ValueIdx

/-- Over the extended reals a lane minimum over ONE axis is, at each reduced index, the fold of `min` from the
    accumulator's value over that axis's coordinates of the source at the index with the coordinate put back. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The least entry of row `r` of an `[a, b]` array: the lane minimum along the second axis, read at `r`. -/
theorem multiReduction_minimumf_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.minimumf.neutral φ hφ) (r : Fin a) :
    multiReduction .minimumf [(1 : Fin 2)] ⟨1, ![a]⟩ src acc h hφ hacc (ix1 r)
      = (Finset.univ : Finset (Fin b)).fold min (FloatOps.ofBits φ acc) (fun k => src (ix2 r k)) := by
  rw [multiReduction_minimumf_single]
  exact congrArg ((Finset.univ : Finset (Fin b)).fold min (FloatOps.ofBits φ acc)) (funext fun k => congrArg src (funext fun c => Fin.ext (by
    match c with | ⟨0, _⟩ => rfl | ⟨1, _⟩ => rfl)))

/-- The least entry of column `c` of an `[a, b]` array: the lane minimum along the first axis, read at `c`. -/
theorem multiReduction_minimumf_ab_b_apply {φ : FTy} {a b : ℕ} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.minimumf.neutral φ hφ) (c : Fin b) :
    multiReduction .minimumf [(0 : Fin 2)] ⟨1, ![b]⟩ src acc h hφ hacc (ix1 c)
      = (Finset.univ : Finset (Fin a)).fold min (FloatOps.ofBits φ acc) (fun k => src (ix2 k c)) := by
  rw [multiReduction_minimumf_single]
  exact congrArg ((Finset.univ : Finset (Fin a)).fold min (FloatOps.ofBits φ acc)) (funext fun k => congrArg src (funext fun d => Fin.ext (by
    match d with | ⟨0, _⟩ => rfl | ⟨1, _⟩ => rfl)))

/-- A one-operand reduction by `min` of an `[a, b, c]` array along its LAST axis is, at `(p, r)`, the fold of `min`
    from the initial value over the `c` entries `(p, r, k)`. -/
theorem hostReduce_minimumf_abc_ab_apply {φ : FTy} {a b c : ℕ} {u : Shape} (x : (⟨3, ![a, b, c]⟩ : Shape).Idx → Ideal φ)
    (init : u.Idx → Ideal φ) (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < u.numel) (p : Fin a) (r : Fin b) :
    Host.reduce (FloatOps.minimumf (F := Ideal) (φ := φ)) x init h' hu (ix2 p r)
      = (Finset.univ : Finset (Fin c)).fold min (init (Shape.Idx.first hu)) (fun k => x (ix3 p r k)) := by
  rw [Host.reduce_eq_fold_single (FloatOps.minimumf (F := Ideal) (φ := φ)) x init h' h hu (ix2 p r)]
  exact congrArg ((Finset.univ : Finset (Fin c)).fold min (init (Shape.Idx.first hu))) (funext fun k => congrArg x (funext fun d => Fin.ext (by
    match d with | ⟨0, _⟩ => rfl | ⟨1, _⟩ => rfl | ⟨2, _⟩ => rfl)))

/-- A one-operand reduction by `min` of an `[a, b, c]` array along its MIDDLE axis is, at `(p, q)`, the fold of `min`
    from the initial value over the `b` entries `(p, k, q)`. -/
theorem hostReduce_minimumf_abc_ac_apply {φ : FTy} {a b c : ℕ} {u : Shape} (x : (⟨3, ![a, b, c]⟩ : Shape).Idx → Ideal φ)
    (init : u.Idx → Ideal φ) (h' : (⟨3, ![a, b, c]⟩ : Shape).ReducesTo [(1 : Fin 3)] ⟨2, ![a, c]⟩)
    (h : (⟨3, ![a, b, c]⟩ : Shape).Reduces [(1 : Fin 3)] ⟨2, ![a, c]⟩) (hu : 0 < u.numel) (p : Fin a) (q : Fin c) :
    Host.reduce (FloatOps.minimumf (F := Ideal) (φ := φ)) x init h' hu (ix2 p q)
      = (Finset.univ : Finset (Fin b)).fold min (init (Shape.Idx.first hu)) (fun k => x (ix3 p k q)) := by
  rw [Host.reduce_eq_fold_single (FloatOps.minimumf (F := Ideal) (φ := φ)) x init h' h hu (ix2 p q)]
  exact congrArg ((Finset.univ : Finset (Fin b)).fold min (init (Shape.Idx.first hu))) (funext fun k => congrArg x (funext fun d => Fin.ext (by
    match d with | ⟨0, _⟩ => rfl | ⟨1, _⟩ => rfl | ⟨2, _⟩ => rfl)))

end Cert.Lib.MinReduce
-- ==== Proof.TileRead.lean ====
/-
  One tile of the pairwise-distance sweep, read entry by entry.

  Each definition of the tile module is a chain of layout operations (reshapes that only add or drop a unit axis, a
  transpose, cuts of a row or column block, broadcasts of a row or a column over a square block) around elementwise
  arithmetic and a reduction along one axis.  Read at an index given by coordinates, a layout operation is its operand
  at one index, elementwise arithmetic is the arithmetic of the entries, a sum along an axis is the sum over that
  axis's coordinates, and a minimum along an axis from +∞ is bounded below by exactly the lower bounds of every entry
  along that axis.  So entry (p, q) of the tile is √ max(|y_p|² + |x_{oj+q}|² − 2·(y_p · x_{oj+q}), 0) with the
  squared norms and the inner product written as sums over the three coordinates.
-/
import proofs.«175803_j49950469653255_1_alg».proof.Proof.Tile
import proofs.«175803_j49950469653255_1_alg».proof.Proof.LibColumns
import proofs.«175803_j49950469653255_1_alg».proof.Proof.LibPlaneSums
import proofs.«175803_j49950469653255_1_alg».proof.Proof.LibMinReduce
import Idealize.ShloMosaic.Lib.Affine
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Tile

open Cert.KernelIdeal Idealize.ShloMosaic Idealize.ShloMosaic.ValueIdx

/-! ## The two point blocks and their squared norms -/

/-- Row `d`, column `k` of the coordinate-major `x` block is coordinate `d` of point `k`. -/
theorem xT_apply (xv : Vec Ideal S1x4096x3 .f32) (d : Fin 3) (k : Fin 4096) :
    xT (F := Ideal) xv (ix2 d k) = xv (ix3 (0 : Fin 1) k d) := by
  unfold xT
  rw [transpose_ix2_apply, shapeCast_1ab_ab_apply]

/-- Entry `k` of the row of squared norms is the sum of the squared coordinates of point `k`. -/
theorem xSq_apply (xv : Vec Ideal S1x4096x3 .f32) (u : Fin 1) (k : Fin 4096) :
    xSq (F := Ideal) xv (ix2 u k) = ∑ d : Fin 3, xv (ix3 (0 : Fin 1) k d) * xv (ix3 (0 : Fin 1) k d) := by
  unfold xSq
  rw [shapeCast_a_1a_apply]
  refine (Cert.Lib.PlaneSums.multiReduction_add_ab_b_apply _ _ _ _ _ k).trans ?_
  refine Finset.sum_congr rfl fun d _ => ?_
  rw [mulf_apply, xT_apply]

/-- Row `p`, column `d` of the point-major `y` tile is coordinate `d` of point `p`. -/
theorem yM_apply (yv : Vec Ideal S1x1024x3 .f32) (p : Fin 1024) (d : Fin 3) :
    yM (F := Ideal) yv (ix2 p d) = yv (ix3 (0 : Fin 1) p d) := by
  unfold yM
  rw [shapeCast_1ab_ab_apply]

/-- Entry `p` of the column of squared norms is the sum of the squared coordinates of point `p`. -/
theorem ySq_apply (yv : Vec Ideal S1x1024x3 .f32) (p : Fin 1024) (u : Fin 1) :
    ySq (F := Ideal) yv (ix2 p u) = ∑ d : Fin 3, yv (ix3 (0 : Fin 1) p d) * yv (ix3 (0 : Fin 1) p d) := by
  unfold ySq
  rw [Cert.Lib.Columns.shapeCast_a_a1_apply]
  refine (Cert.Lib.Columns.multiReduction_add_ab_a_apply _ _ _ _ _ p).trans ?_
  refine Finset.sum_congr rfl fun d _ => ?_
  rw [mulf_apply, yM_apply]

/-! ## The inner products -/

/-- The product of coordinate `d` of the two blocks at `(p, q)`. -/
theorem prod_apply (d : ℕ) (hy : S1024x3.Slices ![0, d] S1024x1) (hx : S3x1024.Slices ![d, 0] S1x1024)
    (xs : FVec Ideal S3x1024 .f32) (ym : FVec Ideal S1024x3 .f32) (p q : Fin 1024) (dd : Fin 3) (hd : dd.val = d) :
    prod (F := Ideal) d hy hx xs ym (ix2 p q) = ym (ix2 p dd) * xs (ix2 dd q) := by
  unfold prod
  rw [mulf_apply, Cert.Lib.Columns.broadcastTo_a1_ab_apply, broadcastTo_1b_ab_apply,
    slice2_axis1_apply d ym hy p (0 : Fin 1) dd hd, slice2_axis0_apply d xs hx (0 : Fin 1) q dd hd]

/-- The inner product of `y` point `p` and `x` point `q` of the tile, coordinate by coordinate. -/
theorem cross_apply (xs : FVec Ideal S3x1024 .f32) (ym : FVec Ideal S1024x3 .f32) (p q : Fin 1024) :
    cross (F := Ideal) xs ym (ix2 p q)
      = (ym (ix2 p (0 : Fin 3)) * xs (ix2 (0 : Fin 3) q) + ym (ix2 p (1 : Fin 3)) * xs (ix2 (1 : Fin 3) q))
        + ym (ix2 p (2 : Fin 3)) * xs (ix2 (2 : Fin 3) q) := by
  unfold cross
  rw [addf_apply, addf_apply, prod_apply 0 _ _ xs ym p q 0 rfl, prod_apply 1 _ _ xs ym p q 1 rfl,
    prod_apply 2 _ _ xs ym p q 2 rfl]

/-! ## The tile of distances -/

/-- Entry `(p, q)` of the tile: the square root of the clamped expanded squared distance between `y` point `p` of the
    tile and `x` point `oj + q`. -/
theorem tile_apply (oj : ℕ) (h1 : S1x4096.Slices ![0, oj] S1x1024) (h3 : S3x4096.Slices ![0, oj] S3x1024)
    (xv : Vec Ideal S1x4096x3 .f32) (yv : Vec Ideal S1x1024x3 .f32) (p q : Fin 1024) (hq : oj + q.val < 4096) :
    tile (F := Ideal) oj h1 h3 xv yv (ix2 p q)
      = Ideal.sqrt (max (((∑ d : Fin 3, yv (ix3 0 p d) * yv (ix3 0 p d))
            + (∑ d : Fin 3, xv (ix3 0 ⟨oj + q.val, hq⟩ d) * xv (ix3 0 ⟨oj + q.val, hq⟩ d)))
          - Ideal.ofBits .f32 0x40000000#32
            * ((yv (ix3 0 p 0) * xv (ix3 0 ⟨oj + q.val, hq⟩ 0) + yv (ix3 0 p 1) * xv (ix3 0 ⟨oj + q.val, hq⟩ 1))
              + yv (ix3 0 p 2) * xv (ix3 0 ⟨oj + q.val, hq⟩ 2)))
        (Ideal.ofBits .f32 0x00000000#32)) := by
  unfold tile
  change Ideal.sqrt (maximumf (F := Ideal) (s := S1024x1024) (φ := .f32) _ _ (ix2 p q)) = _
  rw [maximumf_apply, subf_apply, addf_apply, mulf_apply, broadcast_apply, broadcast_apply,
    Cert.Lib.Columns.broadcastTo_a1_ab_apply, broadcastTo_1b_ab_apply, ySq_apply,
    slice2_axis1_apply oj (xSq xv) h1 (0 : Fin 1) q ⟨oj + q.val, hq⟩ rfl, xSq_apply, cross_apply,
    slice2_axis1_apply oj (xT xv) h3 (0 : Fin 3) q ⟨oj + q.val, hq⟩ rfl,
    slice2_axis1_apply oj (xT xv) h3 (1 : Fin 3) q ⟨oj + q.val, hq⟩ rfl,
    slice2_axis1_apply oj (xT xv) h3 (2 : Fin 3) q ⟨oj + q.val, hq⟩ rfl,
    xT_apply, xT_apply, xT_apply, yM_apply, yM_apply, yM_apply]
  rfl

/-! ## The minima of a tile -/

/-- The word 0x7F800000 denotes +∞. -/
theorem top_f32 : FloatOps.ofBits (F := Ideal) .f32 0x7F800000#32 = (⊤ : EReal) := by
  simp [Ideal.ofBits, Ideal.ieee]

/-- Entry `q` of the row of column minima is the least of +∞ and the entries of column `q`. -/
theorem colMin_apply (T : FVec Ideal S1024x1024 .f32) (u : Fin 1) (q : Fin 1024) :
    colMin (F := Ideal) T (ix2 u q) = (Finset.univ : Finset (Fin 1024)).fold min (⊤ : EReal) (fun p => T (ix2 p q)) := by
  unfold colMin
  rw [shapeCast_a_1a_apply]
  exact (Cert.Lib.MinReduce.multiReduction_minimumf_ab_b_apply T _ _ _ _ q).trans
    (congrArg (fun b : EReal => (Finset.univ : Finset (Fin 1024)).fold min b (fun p => T (ix2 p q))) top_f32)

/-- A lower bound of the minimum of column `q` is a lower bound of every entry of that column. -/
theorem le_colMin (T : FVec Ideal S1024x1024 .f32) (a : EReal) (q : Fin 1024) :
    a ≤ colMin (F := Ideal) T (ix2 0 q) ↔ ∀ p : Fin 1024, a ≤ T (ix2 p q) := by
  rw [colMin_apply, Finset.le_fold_min]
  simp only [le_top, true_and, Finset.mem_univ, forall_true_left]

/-- Entry `p` of the row of row minima is the least of +∞ and the entries of row `p`. -/
theorem rowMin_apply (T : FVec Ideal S1024x1024 .f32) (u : Fin 1) (p : Fin 1024) :
    rowMin (F := Ideal) T (ix2 u p) = (Finset.univ : Finset (Fin 1024)).fold min (⊤ : EReal) (fun q => T (ix2 p q)) := by
  unfold rowMin
  rw [transpose_ix2_apply, Cert.Lib.Columns.shapeCast_a_a1_apply]
  exact (Cert.Lib.MinReduce.multiReduction_minimumf_ab_a_apply T _ _ _ _ p).trans
    (congrArg (fun b : EReal => (Finset.univ : Finset (Fin 1024)).fold min b (fun q => T (ix2 p q))) top_f32)

/-- A lower bound of the minimum of row `p` is a lower bound of every entry of that row. -/
theorem le_rowMin (T : FVec Ideal S1024x1024 .f32) (a : EReal) (p : Fin 1024) :
    a ≤ rowMin (F := Ideal) T (ix2 0 p) ↔ ∀ q : Fin 1024, a ≤ T (ix2 p q) := by
  rw [rowMin_apply, Finset.le_fold_min]
  simp only [le_top, true_and, Finset.mem_univ, forall_true_left]

/-! ## The running rows -/

/-- A slice of a running row folded with a tile's contribution is the entrywise minimum. -/
theorem fold_apply (v : Vec Ideal S1x1024 .f32) (cm : FVec Ideal S1x1024 .f32) (j : S1x1024.Idx) :
    fold (F := Ideal) v cm j = min (v j) (cm j) := by
  unfold fold
  rw [shapeCast_apply _ _ j j rfl]
  rfl

/-- The initial running row is +∞ everywhere. -/
theorem top_apply (j : S1x4096.Idx) : top (F := Ideal) j = ⊤ := by
  unfold top
  rw [shapeCast_apply _ _ j j rfl, broadcast_apply]
  exact top_f32

/-! ## The mean of a row and the stored result -/

/-- The mean of a row: the sum of its 4096 entries divided by the float 4096. -/
theorem mean_apply (v : Vec Ideal S1x4096 .f32) (u : S1x1.Idx) :
    mean (F := Ideal) v u = Ideal.div (∑ k : Fin 4096, v (ix2 0 k)) (Ideal.ofBits .f32 0x45800000#32) := by
  obtain ⟨a, b, rfl⟩ : ∃ a b, u = ix2 a b := ⟨u 0, u 1, eq_ix2 u⟩
  obtain rfl : a = 0 := Subsingleton.elim _ _
  unfold mean
  rw [divf_apply, broadcast_apply, Cert.Lib.Columns.shapeCast_a_a1_apply]
  refine congrArg (fun s => Ideal.div s (Ideal.ofBits .f32 0x45800000#32)) ?_
  exact Cert.Lib.Columns.multiReduction_add_ab_a_apply _ _ _ _ _ (0 : Fin 1)

/-- Two small positions written as 32-bit words are equal exactly when the positions are. -/
theorem ofNat_eq_iff (k t : Fin 4) : BitVec.ofNat 32 k.val = BitVec.ofNat 32 t.val ↔ k = t := by
  revert k t; decide

/-- The stored result: entry `t` becomes the sum of the two means, every other entry is kept. -/
theorem result_apply (t k : Fin 4) (cr rr : Vec Ideal S1x4096 .f32) (old : Vec Ideal S4 .f32) :
    result (F := Ideal) (BitVec.ofNat 32 t.val) cr rr old (ix1 k)
      = if k = t then mean (F := Ideal) cr (ix2 0 0) + mean (F := Ideal) rr (ix2 0 0) else old (ix1 k) := by
  unfold result
  rw [select_apply]
  change Scalar.select (IntOp.cmpi .eq (shapeCast S4 _ _ (ix1 k)) (broadcast S4 _ (ix1 k))) _ _ = _
  rw [shapeCast_1a_a_apply, iota_single_apply, broadcast_apply, broadcast_apply, shapeCast_apply old _ (ix1 k) (ix1 k) rfl]
  have hidx : (fun a => ⟨(![0, 0] : Fin 2 → ℕ) a, Facts₀.inpos_S1x1_p0_0 a⟩ : S1x1.Idx) = ix2 (0 : Fin 1) (0 : Fin 1) :=
    funext fun a => Fin.ext (by match a with | ⟨0, _⟩ => rfl | ⟨1, _⟩ => rfl)
  unfold extractAt
  rw [hidx, addf_apply]
  exact if_congr (IntOp.cmpi_eq.trans (ofNat_eq_iff k t)) rfl rfl

end Cert.KernelIdeal.Tile

end
-- ==== Proof.SweepInv.lean ====
/-
  What the two running rows hold after the sweep.

  Reading a list of stores at an entry: the newest store whose slice holds the entry decides.  So after
  the tiles numbered below `n` the row of column minima holds, at column `1024·tj + q`, a value `v` with
  `a ≤ v` exactly when `a` is below every entry of column `q` of every tile `(ti, tj)` already swept —
  the universal property of a minimum, carried tile by tile; and likewise for the row of row minima.
  After all sixteen tiles each entry is the infimum over a whole column (row) of the distance matrix.
-/
import proofs.«175803_j49950469653255_1_alg».proof.Proof.Sweep
import proofs.«175803_j49950469653255_1_alg».proof.Proof.TileRead

set_option maxRecDepth 16384

noncomputable section

namespace Cert.KernelIdeal.Sweep

open Cert.KernelIdeal Cert.KernelIdeal.Tile Cert.KernelIdeal.Body
open Idealize.ShloMosaic Idealize.ShloMosaic.TcCoe Idealize.ShloMosaic.ValueIdx
open Cert.KernelIdeal.Facts₀

/-! ## Reading a list of stores at an entry -/

section Canon
variable (L : List (View.Piece (Elt Ideal) S1x4096 .f32))

/-- Entry `q` of slice `k` is entry `offs k + q` of the row. -/
theorem slot_emb (k : Fin 4) (q : Fin 1024) (h : offs k + q.val < 4096) :
    (slot k).emb (ix2 (0 : Fin 1) q) = ix2 (0 : Fin 1) (⟨offs k + q.val, h⟩ : Fin 4096) := by
  funext a; apply Fin.ext
  match a with
  | ⟨0, _⟩ => rfl
  | ⟨1, _⟩ => show offs k + 1 * q.val = offs k + q.val; omega

/-- Under the newest store, the list reads that store's payload; -/
theorem canon_hit (k : Fin 4) (w : (slot k).shape.Idx → Elt Ideal .f32) (q : Fin 1024) (h : offs k + q.val < 4096) :
    View.canon (⟨slot k, w⟩ :: L) (ix2 (0 : Fin 1) (⟨offs k + q.val, h⟩ : Fin 4096)) = w (ix2 (0 : Fin 1) q) := by
  rw [← slot_emb k q h]; exact View.canon_cons_emb (slot k) w L _

/-- off its slice, the earlier stores. -/
theorem canon_miss (k : Fin 4) (w : (slot k).shape.Idx → Elt Ideal .f32) (j : Fin 4096) (h : j.val < offs k ∨ offs k + 1024 ≤ j.val) :
    View.canon (⟨slot k, w⟩ :: L) (ix2 (0 : Fin 1) j) = View.canon L (ix2 (0 : Fin 1) j) := by
  refine View.canon_cons_of_not_mem ⟨slot k, w⟩ L ?_
  show ix2 (0 : Fin 1) j ∉ (Rect.unit (s := S1x4096) ![0, offs k] S1x1024.size (inbRow k)).set
  rw [Rect.mem_set_unit]; intro hm
  have h1 := hm ⟨1, by decide⟩
  have e1 : ((ix2 (0 : Fin 1) j : S1x4096.Idx) ⟨1, by decide⟩ : ℕ) = j.val := rfl
  have e2 : (![0, offs k] : Fin 2 → ℕ) ⟨1, by decide⟩ = offs k := rfl
  have e3 : S1x1024.size ⟨1, by decide⟩ = 1024 := rfl
  rw [e1, e2, e3] at h1; omega

/-- A load of slice `k` after the stores `L` reads the list at the slice's entries. -/
theorem readCov_slot (arg : Memref sig .tc .vmem S1x4096 .f32) (k : Fin 4) (q : Fin 1024) (h : offs k + q.val < 4096) :
    arg.view.readCov L (slot k).toLoadRect (ix2 (0 : Fin 1) q) = View.canon L (ix2 (0 : Fin 1) (⟨offs k + q.val, h⟩ : Fin 4096)) := by
  rw [View.readCov_eq_canon', ← slot_emb k q h]; rfl

/-- A load of the whole row reads the list itself. -/
theorem readCov_row (arg : Memref sig .tc .vmem S1x4096 .f32) (j : S1x4096.Idx) :
    arg.view.readCov L (Rect.unit (s := S1x4096) ![0, 0] S1x4096.size inb_S1x4096_S1x4096_0_0).toLoadRect j = View.canon L j := by
  rw [View.readCov_eq_canon']
  show View.canon L _ = _
  congr 1
  funext a; apply Fin.ext
  match a with
  | ⟨0, _⟩ => show 0 + 1 * (j ⟨0, _⟩).val = _; omega
  | ⟨1, _⟩ => show 0 + 1 * (j ⟨1, _⟩).val = _; omega

end Canon

/-! ## The invariants of the sweep -/

section Inv
variable (arg1 : Memref sig .tc .vmem S1x4096x3 .f32) (harg1 : arg1.IsWhole) (arg2 : Memref sig .tc .vmem S1x4096x3 .f32) (harg2 : arg2.IsWhole)
variable (x0 x1 : Vec Ideal S1x4096x3 .f32)

/-- After the tiles numbered below `n`: the row of column minima is, at each column, the minimum over the swept tiles' columns. -/
def ColInv (n : ℕ) (L : List (View.Piece (Elt Ideal) S1x4096 .f32)) : Prop :=
  ∀ (a : EReal) (tj : Fin 4) (q : Fin 1024) (h : offs tj + q.val < 4096),
    a ≤ View.canon L (ix2 (0 : Fin 1) (⟨offs tj + q.val, h⟩ : Fin 4096)) ↔
      ∀ ti : Fin 4, 4 * ti.val + tj.val < n → ∀ p : Fin 1024, a ≤ D arg1 harg1 arg2 harg2 x0 x1 ti tj (ix2 p q)

/-- Likewise the row of row minima, at each row. -/
def RowInv (n : ℕ) (L : List (View.Piece (Elt Ideal) S1x4096 .f32)) : Prop :=
  ∀ (a : EReal) (ti : Fin 4) (p : Fin 1024) (h : offs ti + p.val < 4096),
    a ≤ View.canon L (ix2 (0 : Fin 1) (⟨offs ti + p.val, h⟩ : Fin 4096)) ↔
      ∀ tj : Fin 4, 4 * ti.val + tj.val < n → ∀ q : Fin 1024, a ≤ D arg1 harg1 arg2 harg2 x0 x1 ti tj (ix2 p q)

theorem canon_top (j : S1x4096.Idx) :
    View.canon [(⟨Rect.unit (s := S1x4096) ![0, 0] S1x4096.size inb_S1x4096_S1x4096_0_0, top (F := Ideal)⟩ : View.Piece (Elt Ideal) S1x4096 .f32)] j = (⊤ : EReal) := by
  rw [View.canon_unit_zero (by funext a; match a with | ⟨0, _⟩ => rfl | ⟨1, _⟩ => rfl)]
  exact top_apply j

theorem colInv_init : ColInv arg1 harg1 arg2 harg2 x0 x1 0 [⟨Rect.unit (s := S1x4096) ![0, 0] S1x4096.size inb_S1x4096_S1x4096_0_0, top (F := Ideal)⟩] := by
  intro a tj q h
  rw [canon_top]
  exact ⟨fun _ ti hlt => absurd hlt (Nat.not_lt_zero _), fun _ => le_top⟩

theorem rowInv_init : RowInv arg1 harg1 arg2 harg2 x0 x1 0 [⟨Rect.unit (s := S1x4096) ![0, 0] S1x4096.size inb_S1x4096_S1x4096_0_0, top (F := Ideal)⟩] := by
  intro a ti p h
  rw [canon_top]
  exact ⟨fun _ tj hlt => absurd hlt (Nat.not_lt_zero _), fun _ => le_top⟩

theorem colInv_step (arg5 : Memref sig .tc .vmem S1x4096 .f32) (n : ℕ) (L : List (View.Piece (Elt Ideal) S1x4096 .f32))
    (hL : ColInv arg1 harg1 arg2 harg2 x0 x1 n L) (ti0 tj0 : Fin 4) (hn : 4 * ti0.val + tj0.val = n) :
    ColInv arg1 harg1 arg2 harg2 x0 x1 (n + 1) (colPiece arg1 harg1 arg2 harg2 x0 x1 arg5 ti0 tj0 L) := by
  intro a tj q h
  unfold colPiece
  by_cases e : tj = tj0
  · subst e
    rw [canon_hit L tj _ q h, fold_apply, le_min_iff, readCov_slot L arg5 tj q h, hL a tj q h, le_colMin]
    constructor
    · rintro ⟨h1, h2⟩ ti hlt p
      by_cases e2 : ti = ti0
      · subst e2; exact h2 p
      · exact h1 ti (by have : ti.val ≠ ti0.val := fun e => e2 (Fin.ext e); omega) p
    · intro H; exact ⟨fun ti hlt p => H ti (by omega) p, fun p => H ti0 (by omega) p⟩
  · have hne : tj.val ≠ tj0.val := fun h' => e (Fin.ext h')
    have hq := q.isLt
    rw [canon_miss L tj0 _ ⟨offs tj + q.val, h⟩ (by show offs tj + q.val < offs tj0 ∨ offs tj0 + 1024 ≤ offs tj + q.val; rw [offs_eq, offs_eq]; omega),
      hL a tj q h]
    have htj := tj.isLt; have htj0 := tj0.isLt
    exact ⟨fun H ti hlt p => H ti (by omega) p, fun H ti hlt p => H ti (by omega) p⟩

theorem rowInv_step (arg4 : Memref sig .tc .vmem S1x4096 .f32) (n : ℕ) (L : List (View.Piece (Elt Ideal) S1x4096 .f32))
    (hL : RowInv arg1 harg1 arg2 harg2 x0 x1 n L) (ti0 tj0 : Fin 4) (hn : 4 * ti0.val + tj0.val = n) :
    RowInv arg1 harg1 arg2 harg2 x0 x1 (n + 1) (rowPiece arg1 harg1 arg2 harg2 x0 x1 arg4 ti0 tj0 L) := by
  intro a ti p h
  unfold rowPiece
  have htj0 := tj0.isLt
  by_cases e : ti = ti0
  · subst e
    rw [canon_hit L ti _ p h, fold_apply, le_min_iff, readCov_slot L arg4 ti p h, hL a ti p h, le_rowMin]
    constructor
    · rintro ⟨h1, h2⟩ tj hlt q
      by_cases e2 : tj = tj0
      · subst e2; exact h2 q
      · exact h1 tj (by have : tj.val ≠ tj0.val := fun e => e2 (Fin.ext e); omega) q
    · intro H; exact ⟨fun tj hlt q => H tj (by omega) q, fun q => H tj0 (by omega) q⟩
  · have hne : ti.val ≠ ti0.val := fun h' => e (Fin.ext h')
    have hp := p.isLt
    rw [canon_miss L ti0 _ ⟨offs ti + p.val, h⟩ (by show offs ti + p.val < offs ti0 ∨ offs ti0 + 1024 ≤ offs ti + p.val; rw [offs_eq, offs_eq]; omega),
      hL a ti p h]
    exact ⟨fun H tj hlt q => H tj (by have := tj.isLt; omega) q, fun H tj hlt q => H tj (by omega) q⟩

variable (c : Dev nD) (arg4 arg5 : Memref sig .tc .vmem S1x4096 .f32)

/-- After all sixteen tiles. -/
theorem colInv_final : ColInv arg1 harg1 arg2 harg2 x0 x1 16 (bodyRun.sl.HS1_17 (F := Ideal) c arg1 harg1 arg2 harg2 arg5 x0 x1) := by
  rw [colList_15, colList_14, colList_13, colList_12, colList_11, colList_10, colList_9, colList_8, colList_7, colList_6, colList_5, colList_4, colList_3, colList_2, colList_1, colList_0, colList_init]
  exact colInv_step arg1 harg1 arg2 harg2 x0 x1 arg5 15 _ (colInv_step arg1 harg1 arg2 harg2 x0 x1 arg5 14 _ (colInv_step arg1 harg1 arg2 harg2 x0 x1 arg5 13 _ (colInv_step arg1 harg1 arg2 harg2 x0 x1 arg5 12 _ (colInv_step arg1 harg1 arg2 harg2 x0 x1 arg5 11 _ (colInv_step arg1 harg1 arg2 harg2 x0 x1 arg5 10 _ (colInv_step arg1 harg1 arg2 harg2 x0 x1 arg5 9 _ (colInv_step arg1 harg1 arg2 harg2 x0 x1 arg5 8 _ (colInv_step arg1 harg1 arg2 harg2 x0 x1 arg5 7 _ (colInv_step arg1 harg1 arg2 harg2 x0 x1 arg5 6 _ (colInv_step arg1 harg1 arg2 harg2 x0 x1 arg5 5 _ (colInv_step arg1 harg1 arg2 harg2 x0 x1 arg5 4 _ (colInv_step arg1 harg1 arg2 harg2 x0 x1 arg5 3 _ (colInv_step arg1 harg1 arg2 harg2 x0 x1 arg5 2 _ (colInv_step arg1 harg1 arg2 harg2 x0 x1 arg5 1 _ (colInv_step arg1 harg1 arg2 harg2 x0 x1 arg5 0 _ (colInv_init arg1 harg1 arg2 harg2 x0 x1) 0 0 rfl) 0 1 rfl) 0 2 rfl) 0 3 rfl) 1 0 rfl) 1 1 rfl) 1 2 rfl) 1 3 rfl) 2 0 rfl) 2 1 rfl) 2 2 rfl) 2 3 rfl) 3 0 rfl) 3 1 rfl) 3 2 rfl) 3 3 rfl

theorem rowInv_final : RowInv arg1 harg1 arg2 harg2 x0 x1 16 (bodyRun.sl.HS0_17 (F := Ideal) c arg1 harg1 arg2 harg2 arg4 x0 x1) := by
  rw [rowList_15, rowList_14, rowList_13, rowList_12, rowList_11, rowList_10, rowList_9, rowList_8, rowList_7, rowList_6, rowList_5, rowList_4, rowList_3, rowList_2, rowList_1, rowList_0, rowList_init]
  exact rowInv_step arg1 harg1 arg2 harg2 x0 x1 arg4 15 _ (rowInv_step arg1 harg1 arg2 harg2 x0 x1 arg4 14 _ (rowInv_step arg1 harg1 arg2 harg2 x0 x1 arg4 13 _ (rowInv_step arg1 harg1 arg2 harg2 x0 x1 arg4 12 _ (rowInv_step arg1 harg1 arg2 harg2 x0 x1 arg4 11 _ (rowInv_step arg1 harg1 arg2 harg2 x0 x1 arg4 10 _ (rowInv_step arg1 harg1 arg2 harg2 x0 x1 arg4 9 _ (rowInv_step arg1 harg1 arg2 harg2 x0 x1 arg4 8 _ (rowInv_step arg1 harg1 arg2 harg2 x0 x1 arg4 7 _ (rowInv_step arg1 harg1 arg2 harg2 x0 x1 arg4 6 _ (rowInv_step arg1 harg1 arg2 harg2 x0 x1 arg4 5 _ (rowInv_step arg1 harg1 arg2 harg2 x0 x1 arg4 4 _ (rowInv_step arg1 harg1 arg2 harg2 x0 x1 arg4 3 _ (rowInv_step arg1 harg1 arg2 harg2 x0 x1 arg4 2 _ (rowInv_step arg1 harg1 arg2 harg2 x0 x1 arg4 1 _ (rowInv_step arg1 harg1 arg2 harg2 x0 x1 arg4 0 _ (rowInv_init arg1 harg1 arg2 harg2 x0 x1) 0 0 rfl) 0 1 rfl) 0 2 rfl) 0 3 rfl) 1 0 rfl) 1 1 rfl) 1 2 rfl) 1 3 rfl) 2 0 rfl) 2 1 rfl) 2 2 rfl) 2 3 rfl) 3 0 rfl) 3 1 rfl) 3 2 rfl) 3 3 rfl

end Inv

end Cert.KernelIdeal.Sweep

end
-- ==== Proof.RealDist.lean ====
/-
  The squared distance between two points of three-dimensional space, written in expanded form.

  For real numbers  |y|² + |x|² − 2 (y·x) = Σ_d (x_d − y_d)²: expand each square and collect. The right side is a
  sum of squares, so it is nonnegative, and the larger of it and 0 is itself. Among the extended reals the
  expansion uses distributivity, which fails at the infinities; the statement therefore asks every coordinate to be
  a real number. The literal words 0x40000000 and 0x00000000 denote 2 and 0.
-/
import Idealize.ShloMosaic.PureOps.Ideal

open scoped BigOperators

noncomputable section

namespace Cert.Chamfer

open Idealize.ShloMosaic

/-- The word 0x40000000 denotes 2. -/
theorem two_f32 : Ideal.ofBits .f32 0x40000000#32 = ((2 : ℝ) : EReal) := by
  simp [Ideal.ofBits, Ideal.ieee, -EReal.coe_mul]; norm_num

/-- The word 0x00000000 denotes 0. -/
theorem zero_f32 : Ideal.ofBits .f32 0x00000000#32 = ((0 : ℝ) : EReal) := by
  simp [Ideal.ofBits, Ideal.ieee]

/-- The sum of the three squared coordinate differences of real points, as a real number. -/
def sqDistR (a b : Fin 3 → ℝ) : ℝ :=
  (a 0 - b 0) * (a 0 - b 0) + (a 1 - b 1) * (a 1 - b 1) + (a 2 - b 2) * (a 2 - b 2)

theorem sqDistR_nonneg (a b : Fin 3 → ℝ) : 0 ≤ sqDistR a b := by
  unfold sqDistR
  have h0 := mul_self_nonneg (a 0 - b 0)
  have h1 := mul_self_nonneg (a 1 - b 1)
  have h2 := mul_self_nonneg (a 2 - b 2)
  linarith

/-- The sum of squared differences of coerced real points is the coercion of the real sum. -/
theorem sum_sq_coe (a b : Fin 3 → ℝ) :
    (∑ d : Fin 3, ((a d : EReal) - (b d : EReal)) * ((a d : EReal) - (b d : EReal))) = ((sqDistR a b : ℝ) : EReal) := by
  rw [Fin.sum_univ_three]
  unfold sqDistR
  simp only [EReal.coe_add, EReal.coe_mul, EReal.coe_sub]

/-- The expanded form on coerced real points is the coercion of the same real sum. -/
theorem expanded_coe (a b : Fin 3 → ℝ) :
    ((∑ d : Fin 3, (b d : EReal) * (b d : EReal)) + (∑ d : Fin 3, (a d : EReal) * (a d : EReal)))
        - ((2 : ℝ) : EReal) * ((((b 0 : EReal) * (a 0 : EReal) + (b 1 : EReal) * (a 1 : EReal))) + (b 2 : EReal) * (a 2 : EReal))
      = ((sqDistR a b : ℝ) : EReal) := by
  rw [Fin.sum_univ_three, Fin.sum_univ_three]
  have h : sqDistR a b
      = ((b 0 * b 0 + b 1 * b 1 + b 2 * b 2) + (a 0 * a 0 + a 1 * a 1 + a 2 * a 2)) - 2 * ((b 0 * a 0 + b 1 * a 1) + b 2 * a 2) := by
    unfold sqDistR; ring
  rw [h]
  simp only [EReal.coe_add, EReal.coe_mul, EReal.coe_sub]

/-- On real points the clamped expanded form and the sum of squared differences have the same square root. -/
theorem expand_dist (xs ys : Fin 3 → EReal) (hx : ∀ d, ∃ r : ℝ, xs d = (r : EReal)) (hy : ∀ d, ∃ r : ℝ, ys d = (r : EReal)) :
    Ideal.sqrt (max (((∑ d : Fin 3, ys d * ys d) + (∑ d : Fin 3, xs d * xs d)) - Ideal.ofBits .f32 0x40000000#32 * ((ys 0 * xs 0 + ys 1 * xs 1) + ys 2 * xs 2)) (Ideal.ofBits .f32 0x00000000#32))
      = Ideal.sqrt (∑ d : Fin 3, (xs d - ys d) * (xs d - ys d)) := by
  choose a ha using hx
  choose b hb using hy
  have hxs : xs = fun d => (a d : EReal) := funext ha
  have hys : ys = fun d => (b d : EReal) := funext hb
  subst hxs hys
  rw [two_f32, zero_f32]
  rw [expanded_coe a b, sum_sq_coe a b]
  rw [max_eq_left (EReal.coe_le_coe_iff.mpr (sqDistR_nonneg a b))]

/-- On real points the distance is a nonnegative real number. -/
theorem sqrt_sum_sq_isReal (xs ys : Fin 3 → EReal) (hx : ∀ d, ∃ r : ℝ, xs d = (r : EReal)) (hy : ∀ d, ∃ r : ℝ, ys d = (r : EReal)) :
    ∃ r : ℝ, 0 ≤ r ∧ Ideal.sqrt (∑ d : Fin 3, (xs d - ys d) * (xs d - ys d)) = (r : EReal) := by
  choose a ha using hx
  choose b hb using hy
  have hxs : xs = fun d => (a d : EReal) := funext ha
  have hys : ys = fun d => (b d : EReal) := funext hb
  subst hxs hys
  refine ⟨Real.sqrt (sqDistR a b), Real.sqrt_nonneg _, ?_⟩
  rw [sum_sq_coe a b, Ideal.sqrt_coe, if_neg (not_lt.mpr (sqDistR_nonneg a b))]

end Cert.Chamfer

end
-- ==== Proof.PointValue.lean ====
/-
  What one grid point leaves in the output buffer, entry by entry.

  On real inputs every tile entry is the distance between its two points: the expanded form
  `|y|² + |x|² − 2 y·x` is the sum of squared coordinate differences, which is nonnegative, so the clamp
  at zero does nothing.  After the sweep the row of column minima holds at column `j` the infimum over
  all 4096 points `i` of `y` of the distance to point `j` of `x`, and the row of row minima the infimum
  over `j` at row `i`.  The point stores the sum of the two rows' means into its own entry of the output
  and keeps the other three entries.
-/
import proofs.«175803_j49950469653255_1_alg».proof.Proof.SweepInv
import proofs.«175803_j49950469653255_1_alg».proof.Proof.RealDist

set_option maxRecDepth 16384

noncomputable section

namespace Cert.KernelIdeal.Sweep

open Cert.KernelIdeal Cert.KernelIdeal.Tile Cert.KernelIdeal.Body
open Idealize.ShloMosaic Idealize.ShloMosaic.TcCoe Idealize.ShloMosaic.ValueIdx
open Cert.KernelIdeal.Facts₀

/-- The distance between point `j` of the `x` block and point `i` of the `y` block. -/
def bdist (x0 x1 : Vec Ideal S1x4096x3 .f32) (i j : Fin 4096) : EReal :=
  Ideal.sqrt (∑ d : Fin 3, (x0 (ix3 (0 : Fin 1) j d) - x1 (ix3 (0 : Fin 1) i d)) * (x0 (ix3 (0 : Fin 1) j d) - x1 (ix3 (0 : Fin 1) i d)))

/-- What the point computes from its two blocks: the mean over `j` of the nearest `i`, plus the mean over `i` of the nearest `j`. -/
def bloss (x0 x1 : Vec Ideal S1x4096x3 .f32) : EReal :=
  Ideal.div (∑ j : Fin 4096, ⨅ i : Fin 4096, bdist x0 x1 i j) (Ideal.ofBits .f32 0x45800000#32)
    + Ideal.div (∑ i : Fin 4096, ⨅ j : Fin 4096, bdist x0 x1 i j) (Ideal.ofBits .f32 0x45800000#32)

/-- Every index below 4096 is a tile's offset plus a position below 1024. -/
theorem split_idx (j : Fin 4096) : ∃ (k : Fin 4) (q : Fin 1024) (h : offs k + q.val < 4096), j = ⟨offs k + q.val, h⟩ := by
  have hj := j.isLt
  have hk : j.val / 1024 < 4 := by omega
  have ho : offs ⟨j.val / 1024, hk⟩ = 1024 * (j.val / 1024) := offs_eq _
  have hlt : offs ⟨j.val / 1024, hk⟩ + j.val % 1024 < 4096 := by rw [ho]; omega
  exact ⟨⟨j.val / 1024, hk⟩, ⟨j.val % 1024, Nat.mod_lt _ (by norm_num)⟩, hlt,
    Fin.ext (by show j.val = offs ⟨j.val / 1024, hk⟩ + j.val % 1024; rw [ho]; omega)⟩

section
variable (arg1 : Memref sig .tc .vmem S1x4096x3 .f32) (harg1 : arg1.IsWhole) (arg2 : Memref sig .tc .vmem S1x4096x3 .f32) (harg2 : arg2.IsWhole)
variable (x0 x1 : Vec Ideal S1x4096x3 .f32)

/-- The whole-block load reads the block. -/
theorem xLoad_eq : xLoad arg1 harg1 x0 = x0 := by
  unfold xLoad
  rw [View.readAt_eq_ld, harg1.read_unread]
  exact View.ld_unit_zero (S := S1x4096x3) (by funext a; match a with | ⟨0, _⟩ => rfl | ⟨1, _⟩ => rfl | ⟨2, _⟩ => rfl) _ x0

/-- A tile load reads the block's points from the tile's offset. -/
theorem yLoad_apply (k : Fin 4) (p : Fin 1024) (d : Fin 3) (h : offs k + p.val < 4096) :
    yLoad arg2 harg2 x1 k (ix3 (0 : Fin 1) p d) = x1 (ix3 (0 : Fin 1) (⟨offs k + p.val, h⟩ : Fin 4096) d) := by
  show View.readAt (Elt Ideal) arg2.view _ (harg2.unread x1) _ = _
  rw [View.readAt_eq_ld, harg2.read_unread]
  show x1 _ = x1 _
  congr 1
  funext a; apply Fin.ext
  match a with
  | ⟨0, _⟩ => rfl
  | ⟨1, _⟩ => show offs k + 1 * p.val = offs k + p.val; omega
  | ⟨2, _⟩ => show 0 + 1 * d.val = d.val; omega

variable (hx0 : ∀ i, ∃ r : ℝ, x0 i = (r : EReal)) (hx1 : ∀ i, ∃ r : ℝ, x1 i = (r : EReal))
include hx0 hx1

/-- On real blocks a tile's entry is the distance between its two points. -/
theorem D_apply (ti tj : Fin 4) (p q : Fin 1024) (hp : offs ti + p.val < 4096) (hq : offs tj + q.val < 4096) :
    D arg1 harg1 arg2 harg2 x0 x1 ti tj (ix2 p q) = bdist x0 x1 ⟨offs ti + p.val, hp⟩ ⟨offs tj + q.val, hq⟩ := by
  unfold D
  rw [tile_apply (offs tj) (sliceRow tj) (sliceT tj) _ _ p q hq, xLoad_eq]
  simp only [yLoad_apply arg2 harg2 x1 ti p _ hp]
  exact Cert.Chamfer.expand_dist (fun d => x0 (ix3 (0 : Fin 1) (⟨offs tj + q.val, hq⟩ : Fin 4096) d))
    (fun d => x1 (ix3 (0 : Fin 1) (⟨offs ti + p.val, hp⟩ : Fin 4096) d)) (fun d => hx0 _) (fun d => hx1 _)

variable (c : Dev nD) (arg4 arg5 : Memref sig .tc .vmem S1x4096 .f32)

/-- After the sweep: the row of column minima at column `j` is the nearest-`y` distance of point `j` of `x`. -/
theorem colRow_apply (j : Fin 4096) :
    View.canon (bodyRun.sl.HS1_17 (F := Ideal) c arg1 harg1 arg2 harg2 arg5 x0 x1) (ix2 (0 : Fin 1) j) = ⨅ i : Fin 4096, bdist x0 x1 i j := by
  obtain ⟨tj, q, hq, rfl⟩ := split_idx j
  have key := colInv_final arg1 harg1 arg2 harg2 x0 x1 c arg5
  refine le_antisymm (le_iInf fun i => ?_) ?_
  · obtain ⟨ti, p, hp, rfl⟩ := split_idx i
    have := (key _ tj q hq).mp le_rfl ti (by have := ti.isLt; have := tj.isLt; omega) p
    rwa [D_apply arg1 harg1 arg2 harg2 x0 x1 hx0 hx1 ti tj p q hp hq] at this
  · refine (key _ tj q hq).mpr fun ti _ p => ?_
    have hp : offs ti + p.val < 4096 := by rw [offs_eq]; have := ti.isLt; have := p.isLt; omega
    rw [D_apply arg1 harg1 arg2 harg2 x0 x1 hx0 hx1 ti tj p q hp hq]
    exact iInf_le _ _

/-- The row of row minima at row `i` is the nearest-`x` distance of point `i` of `y`. -/
theorem rowRow_apply (i : Fin 4096) :
    View.canon (bodyRun.sl.HS0_17 (F := Ideal) c arg1 harg1 arg2 harg2 arg4 x0 x1) (ix2 (0 : Fin 1) i) = ⨅ j : Fin 4096, bdist x0 x1 i j := by
  obtain ⟨ti, p, hp, rfl⟩ := split_idx i
  have key := rowInv_final arg1 harg1 arg2 harg2 x0 x1 c arg4
  refine le_antisymm (le_iInf fun j => ?_) ?_
  · obtain ⟨tj, q, hq, rfl⟩ := split_idx j
    have := (key _ ti p hp).mp le_rfl tj (by have := ti.isLt; have := tj.isLt; omega) q
    rwa [D_apply arg1 harg1 arg2 harg2 x0 x1 hx0 hx1 ti tj p q hp hq] at this
  · refine (key _ ti p hp).mpr fun tj _ q => ?_
    have hq : offs tj + q.val < 4096 := by rw [offs_eq]; have := tj.isLt; have := q.isLt; omega
    rw [D_apply arg1 harg1 arg2 harg2 x0 x1 hx0 hx1 ti tj p q hp hq]
    exact iInf_le _ _

/-- What the point leaves: its own entry becomes the block's result, the others are kept. -/
theorem leaves_apply (t : Fin 4) (i : grid0.Coords) (hi : (i 0).val = t.val)
    (arg3 : Memref sig .tc .vmem S4 .f32) (harg3 : arg3.IsWhole) (harg4 : arg4.IsWhole) (harg5 : arg5.IsWhole)
    (x2 : Vec Ideal S4 .f32) (k : Fin 4) :
    leaves (F := Ideal) c i arg1 harg1 arg2 harg2 arg3 harg3 arg4 harg4 arg5 harg5 x0 x1 x2 (ix1 k)
      = if k = t then bloss x0 x1 else x2 (ix1 k) := by
  have e : leaves (F := Ideal) c i arg1 harg1 arg2 harg2 arg3 harg3 arg4 harg4 arg5 harg5 x0 x1 x2
      = bodyRun.sl.r_37 (F := Ideal) c i arg1 harg1 arg2 harg2 arg3 harg3 arg4 arg5 x0 x1 x2 := by
    unfold leaves bodyRun; dsimp only
    exact View.canon_unit_zero (by funext a; match a with | ⟨0, _⟩ => rfl) _ _
  rw [e, payload_eq, hi, result_apply, mean_apply, mean_apply]
  have eo : View.readAt (Elt Ideal) arg3.view (Rect.unit (s := S4) ![0] S4.size inb_S4_S4_0).toLoadRect (harg3.unread x2) = x2 := by
    rw [View.readAt_eq_ld, harg3.read_unread]
    exact View.ld_unit_zero (S := S4) (by funext a; match a with | ⟨0, _⟩ => rfl) _ x2
  rw [eo]
  have ec : ∀ x : Fin 4096, arg5.view.readCov (bodyRun.sl.HS1_17 (F := Ideal) c arg1 harg1 arg2 harg2 arg5 x0 x1) (Rect.unit (s := S1x4096) ![0, 0] S1x4096.size inb_S1x4096_S1x4096_0_0).toLoadRect (ix2 (0 : Fin 1) x)
      = ⨅ i : Fin 4096, bdist x0 x1 i x := fun x =>
    (readCov_row _ arg5 _).trans (colRow_apply arg1 harg1 arg2 harg2 x0 x1 hx0 hx1 c arg5 x)
  have er : ∀ x : Fin 4096, arg4.view.readCov (bodyRun.sl.HS0_17 (F := Ideal) c arg1 harg1 arg2 harg2 arg4 x0 x1) (Rect.unit (s := S1x4096) ![0, 0] S1x4096.size inb_S1x4096_S1x4096_0_0).toLoadRect (ix2 (0 : Fin 1) x)
      = ⨅ j : Fin 4096, bdist x0 x1 x j := fun x =>
    (readCov_row _ arg4 _).trans (rowRow_apply arg1 harg1 arg2 harg2 x0 x1 hx0 hx1 c arg4 x)
  rw [Finset.sum_congr rfl (fun x _ => ec x), Finset.sum_congr rfl (fun x _ => er x)]
  rfl

end

end Cert.KernelIdeal.Sweep

end
-- ==== Proof.Chamfer.lean ====
/-
  What both programs compute, stated once over the extended reals.

  Each batch holds two clouds of 4096 points of three coordinates, `x` and `y`.  The distance between
  point `j` of `x` and point `i` of `y` is the square root of the sum of the three squared coordinate
  differences.  For every point of `x` take the distance to the nearest point of `y` (an infimum over
  `i`), for every point of `y` the distance to the nearest point of `x` (an infimum over `j`); the
  result for the batch is the mean of the first family plus the mean of the second, each mean a sum
  divided by 4096.
-/
import Idealize.ShloMosaic.PureOps.Ideal
import Idealize.ShloMosaic.Lib.ValueIdx

noncomputable section

namespace Cert.Chamfer

open Idealize.ShloMosaic Idealize.ShloMosaic.ValueIdx

/-- Four batches of 4096 points of three coordinates. -/
abbrev SPts : Shape := ⟨3, ![4, 4096, 3]⟩
/-- One number per batch. -/
abbrev SOut : Shape := ⟨1, ![4]⟩

/-- The squared distance between point `j` of `x` and point `i` of `y` in batch `b`: the sum over the three
    coordinates of the squared difference. -/
def sqDist (x y : SPts.Idx → EReal) (b : Fin 4) (i j : Fin 4096) : EReal :=
  ∑ d : Fin 3, (x (ix3 b j d) - y (ix3 b i d)) * (x (ix3 b j d) - y (ix3 b i d))

/-- The distance itself. -/
def dist (x y : SPts.Idx → EReal) (b : Fin 4) (i j : Fin 4096) : EReal :=
  Ideal.sqrt (sqDist x y b i j)

/-- For point `j` of `x`: the distance to the nearest point of `y`. -/
def nearY (x y : SPts.Idx → EReal) (b : Fin 4) (j : Fin 4096) : EReal := ⨅ i : Fin 4096, dist x y b i j

/-- For point `i` of `y`: the distance to the nearest point of `x`. -/
def nearX (x y : SPts.Idx → EReal) (b : Fin 4) (i : Fin 4096) : EReal := ⨅ j : Fin 4096, dist x y b i j

/-- The number of points of a cloud, as the float both programs divide by. -/
def count : EReal := Ideal.ofBits .f32 0x45800000#32

/-- The result: per batch, the mean nearest-neighbour distance from `x` to `y` plus that from `y` to `x`. -/
def loss (x y : SPts.Idx → EReal) : SOut.Idx → EReal := fun k =>
  Ideal.div (∑ j : Fin 4096, nearY x y (k 0) j) count + Ideal.div (∑ i : Fin 4096, nearX x y (k 0) i) count

end Cert.Chamfer

end
-- ==== Proof.KIResult.lean ====
/-
  The kernel's run, read as a value.

  At point `t` the two input blocks are batch `t` of the two argument arrays, so what the point stores
  into entry `t` of the output buffer is the specification's result for batch `t`; the other entries are
  kept.  The buffer is written back once, after the fourth point, when every entry has been stored by
  its own point: whatever the buffer held at the start, the output array ends at the specification's
  result, entry by entry.  This uses that every input entry is a real number, which the precondition
  gives.
-/
import proofs.«175803_j49950469653255_1_alg».proof.Proof.KIArray
import proofs.«175803_j49950469653255_1_alg».proof.Proof.PointValue
import proofs.«175803_j49950469653255_1_alg».proof.Proof.Chamfer

set_option maxRecDepth 16384

noncomputable section

namespace Cert.KernelIdeal.Body

open Cert.KernelIdeal Cert.KernelIdeal.Gen Cert.KernelIdeal.Sweep
open Idealize.ShloMosaic Idealize.ShloMosaic.TcCoe Idealize.ShloMosaic.ValueIdx
open Idealize.SL.Sem
open Idealize.ShloMosaic.Pipeline (RDat)

variable (m : (ℓ : Loc nD τ sig) → Buf (Elt Ideal) ℓ) (ρ : Dev nD → PrngReg)

/-- The grid point's coordinate is its number. -/
theorem coords_val (t : Fin cfg0.N) : (grid0.coords t 0).val = t.val := by
  rcases fin_N0 t with rfl | rfl | rfl | rfl <;> rfl

theorem lt_four (t : Fin cfg0.N) : t.val < 4 := by have := t.isLt; have e : cfg0.N = 4 := N_0; omega

/-- Entry `(j, d)` of the `x` block at point `t` is coordinate `d` of point `j` of batch `t`. -/
theorem iblk0_apply (c : Dev nD) (t : Fin cfg0.N) (j : Fin 4096) (d : Fin 3) :
    iblk m c 0 t (ix3 (0 : Fin 1) j d) = m ((c.tc : Thread nD τ).loc main_arg0) (ix3 (⟨t.val, lt_four t⟩ : Fin 4) j d) := by
  unfold iblk
  rw [View.read_apply]
  show m ((c.tc : Thread nD τ).loc main_arg0) _ = _
  congr 1
  funext a; apply Fin.ext
  rcases fin_N0 t with rfl | rfl | rfl | rfl <;>
    match a with
    | ⟨0, _⟩ => rfl
    | ⟨1, _⟩ => (show (0 : ℕ) * 4096 + 1 * j.val = j.val; omega)
    | ⟨2, _⟩ => (show (0 : ℕ) * 3 + 1 * d.val = d.val; omega)

/-- The same for the `y` block. -/
theorem iblk1_apply (c : Dev nD) (t : Fin cfg0.N) (j : Fin 4096) (d : Fin 3) :
    iblk m c 1 t (ix3 (0 : Fin 1) j d) = m ((c.tc : Thread nD τ).loc main_arg1) (ix3 (⟨t.val, lt_four t⟩ : Fin 4) j d) := by
  unfold iblk
  rw [View.read_apply]
  show m ((c.tc : Thread nD τ).loc main_arg1) _ = _
  congr 1
  funext a; apply Fin.ext
  rcases fin_N0 t with rfl | rfl | rfl | rfl <;>
    match a with
    | ⟨0, _⟩ => rfl
    | ⟨1, _⟩ => (show (0 : ℕ) * 4096 + 1 * j.val = j.val; omega)
    | ⟨2, _⟩ => (show (0 : ℕ) * 3 + 1 * d.val = d.val; omega)

/-- A block of a real array is real. -/
theorem iblk0_real (c : Dev nD) (t : Fin cfg0.N)
    (h : ∀ i, ∃ r : ℝ, m ((c.tc : Thread nD τ).loc main_arg0) i = (r : EReal)) (y : S1x4096x3.Idx) :
    ∃ r : ℝ, (iblk m c 0 t : Vec Ideal S1x4096x3 .f32) y = (r : EReal) := by
  unfold iblk; rw [View.read_apply]; exact h _
theorem iblk1_real (c : Dev nD) (t : Fin cfg0.N)
    (h : ∀ i, ∃ r : ℝ, m ((c.tc : Thread nD τ).loc main_arg1) i = (r : EReal)) (y : S1x4096x3.Idx) :
    ∃ r : ℝ, (iblk m c 1 t : Vec Ideal S1x4096x3 .f32) y = (r : EReal) := by
  unfold iblk; rw [View.read_apply]; exact h _

/-- The block's result at point `t` is the specification's result for batch `t`. -/
theorem bloss_blocks (c : Dev nD) (t : Fin cfg0.N) :
    bloss (iblk m c 0 t) (iblk m c 1 t)
      = Cert.Chamfer.loss (m ((c.tc : Thread nD τ).loc main_arg0)) (m ((c.tc : Thread nD τ).loc main_arg1)) (ix1 (⟨t.val, lt_four t⟩ : Fin 4)) := by
  unfold bloss bdist Cert.Chamfer.loss Cert.Chamfer.nearY Cert.Chamfer.nearX Cert.Chamfer.dist Cert.Chamfer.sqDist Cert.Chamfer.count
  simp only [iblk0_apply m c t, iblk1_apply m c t]

variable (hreal : ∀ c : Dev nD, (∀ i, ∃ r : ℝ, m ((c.tc : Thread nD τ).loc main_arg0) i = (r : EReal)) ∧ (∀ i, ∃ r : ℝ, m ((c.tc : Thread nD τ).loc main_arg1) i = (r : EReal)))
include hreal

/-- One point's update of the output buffer, against the specification. -/
theorem leavesAt_apply (c : Dev nD) (t : Fin cfg0.N) (Y : Vec Ideal S4 .f32) (k : Fin 4) :
    leavesAt m c t Y (ix1 k)
      = if k = (⟨t.val, lt_four t⟩ : Fin 4) then Cert.Chamfer.loss (m ((c.tc : Thread nD τ).loc main_arg0)) (m ((c.tc : Thread nD τ).loc main_arg1)) (ix1 k) else Y (ix1 k) := by
  unfold leavesAt
  rw [leaves_apply _ _ _ _ (iblk m c 0 t) (iblk m c 1 t) (iblk0_real m c t (hreal c).1) (iblk1_real m c t (hreal c).2) c _ _
    (⟨t.val, lt_four t⟩ : Fin 4) (grid0.coords t) (coords_val t), bloss_blocks]
  split
  · next h => rw [h]
  · rfl

/-- After the run the output array holds the specification's result. -/
theorem output_eq (c : Dev nD) (G : Buf (Elt Ideal) ((cfg0.spec 2).arr.view.loc (c.tc : Thread nD τ))) (h : (rdat m c).ArrAt 2 cfg0.N G) (k : S4.Idx) :
    G k = Cert.Chamfer.loss (m ((c.tc : Thread nD τ).loc main_arg0)) (m ((c.tc : Thread nD τ).loc main_arg1)) k := by
  obtain ⟨Y0, hG⟩ := final_output m c G h
  obtain ⟨k', rfl⟩ : ∃ k' : Fin 4, k = ix1 k' := ⟨k 0, eq_ix1 k⟩
  rw [hG, leavesAt_apply m hreal c t0_3]
  by_cases e3 : k' = ⟨t0_3.val, lt_four t0_3⟩
  · rw [if_pos e3]
  rw [if_neg e3, leavesAt_apply m hreal c t0_2]
  by_cases e2 : k' = ⟨t0_2.val, lt_four t0_2⟩
  · rw [if_pos e2]
  rw [if_neg e2, leavesAt_apply m hreal c t0_1]
  by_cases e1 : k' = ⟨t0_1.val, lt_four t0_1⟩
  · rw [if_pos e1]
  rw [if_neg e1, leavesAt_apply m hreal c t0_0]
  by_cases e0 : k' = ⟨t0_0.val, lt_four t0_0⟩
  · rw [if_pos e0]
  exfalso
  have h3 : k'.val ≠ 3 := fun h => e3 (Fin.ext h)
  have h2 : k'.val ≠ 2 := fun h => e2 (Fin.ext h)
  have h1 : k'.val ≠ 1 := fun h => e1 (Fin.ext h)
  have h0 : k'.val ≠ 0 := fun h => e0 (Fin.ext h)
  have := k'.isLt
  omega

/-- THE KERNEL'S VALUE: every weakly fair execution terminates with the output array at the specification's
    result of the two argument arrays, and both argument arrays as launched. -/
theorem run_value : θ_run defs (onTc (τ := τ) (main (F := Ideal))) ⟨m, fun _ => 0, ρ⟩ (fun r => ∀ c : Dev nD,
      r.2.mem ((c.tc : Thread nD τ).loc main_v0) = Cert.Chamfer.loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨funext fun k => output_eq m hreal c _ ((h c).1 2) k,
      (Eq.mp (congrFun ((rdat m c).ArrAt_in 0 rfl _) _) ((h c).1 0)).trans ((A_eq m c 0).trans (V_main_arg0 m c)),
      (Eq.mp (congrFun ((rdat m c).ArrAt_in 1 rfl _) _) ((h c).1 1)).trans ((A_eq m c 1).trans (V_main_arg1 m c))⟩) (run_main m ρ)

end Cert.KernelIdeal.Body

end
-- ==== Proof.RefSide.lean ====
/-
  The reference program read entry by entry: both directed nearest-neighbour means of the pairwise
  Euclidean distances between the points of `x` and the points of `y`, batch by batch.

  The program forms the array of all pairwise distances, indexed (batch, point of y, point of x): the
  two broadcasts put x on the third axis and y on the second, the difference is squared and summed over the
  three coordinates from zero, and the square root is taken. A minimum from +∞ along the second axis is the
  infimum over the points of y, along the third axis the infimum over the points of x; over the extended
  reals +∞ is the top element, so the initial value drops out of either minimum. Each family of minima is
  summed from zero and divided by 4096, and the two quotients are added.
-/
import proofs.«175803_j49950469653255_1_alg».proof.Proof.Gen.ReferenceIdeal.Read
import proofs.«175803_j49950469653255_1_alg».proof.Proof.Chamfer
import proofs.«175803_j49950469653255_1_alg».proof.Proof.LibMinReduce
import Idealize.ShloMosaic.Lib.ValueIdx
import Idealize.ShloMosaic.PureOps.Ideal.Laws

noncomputable section

namespace Cert.ReferenceIdeal.RefSide

open Idealize.ShloMosaic Idealize.ShloMosaic.ValueIdx

/-- An array of the arguments' type: one extended real per (batch, point, coordinate). -/
abbrev Pts : Type := (⟨Cert.ReferenceIdeal.S4x4096x3, .f32⟩ : BufTy).Contents (Elt Ideal)

/-! ### Two facts about the extended reals -/

/-- The f32 word of +∞ denotes the top element. -/
theorem ofBits_posInf_f32 : Ideal.ofBits .f32 0x7F800000#32 = ⊤ := by simp [Ideal.ofBits, Ideal.ieee]

/-- A minimum of finitely many extended reals taken from the top element is their infimum: both are the
    greatest lower bound of the family. -/
theorem fold_min_top_eq_iInf {n : ℕ} (f : Fin n → EReal) :
    (Finset.univ : Finset (Fin n)).fold min ⊤ f = ⨅ k, f k := by
  refine eq_of_forall_le_iff fun c => ?_
  rw [Finset.le_fold_min, le_iInf_iff]
  exact ⟨fun h k => h.2 k (Finset.mem_univ k), fun h => ⟨le_top, fun k _ => h k⟩⟩

/-! ### The indices the broadcasts read -/

/-- Entry (b, i, j, d) of the first broadcast pair reads `x` at (b, j, d). -/
theorem idx_x (b : Fin 4) (i j : Fin 4096) (d : Fin 3) :
    Read.idx_main_v0 (Read.idx_main_v2 (Read.idx_main_call0_v1 (ix3 b i j) d)) = ix3 b j d := by
  funext a; match a with | ⟨0, _⟩ => rfl | ⟨1, _⟩ => rfl | ⟨2, _⟩ => rfl

/-- Entry (b, i, j, d) of the second broadcast pair reads `y` at (b, i, d). -/
theorem idx_y (b : Fin 4) (i j : Fin 4096) (d : Fin 3) :
    Read.idx_main_v1 (Read.idx_main_v3 (Read.idx_main_call0_v1 (ix3 b i j) d)) = ix3 b i d := by
  funext a; match a with | ⟨0, _⟩ => rfl | ⟨1, _⟩ => rfl | ⟨2, _⟩ => rfl

/-! ### The array of pairwise distances -/

/-- Entry (b, i, j) of the distance array is the distance between point j of `x` and point i of `y`. -/
theorem dist_read (x y : Pts) (b : Fin 4) (i j : Fin 4096) :
    Read.val_main_v5 (F := Ideal) x y (ix3 b i j) = Cert.Chamfer.dist x y b i j := by
  rw [Read.val_main_v5_apply, Read.val_main_call0_v1_apply, Read.val_main_call0_cst_apply]
  simp only [Read.val_main_call0_v0_apply, Read.val_main_v4_apply, Read.val_main_v2_apply,
    Read.val_main_v3_apply, Read.val_main_v0_apply, Read.val_main_v1_apply, idx_x, idx_y]
  simp only [Ideal.hostUnary_sqrt_def, Ideal.ofBits_def, Ideal.ofBits_zero_f32, zero_add, Ideal.mulf_def,
    Ideal.subf_def]
  rfl

/-! ### The two minima -/

/-- The minimum from +∞ along the second axis, at (b, j): the distance from point j of `x` to the nearest point of `y`. -/
theorem nearY_read (x y : Pts) (b : Fin 4) (j : Fin 4096) :
    Read.val_main_v6 (F := Ideal) x y (ix2 b j) = Cert.Chamfer.nearY x y b j := by
  unfold Read.val_main_v6
  rw [Cert.Lib.MinReduce.hostReduce_minimumf_abc_ac_apply _ _ Gen.reducesTo_S4x4096x4096_S4x4096_d1 (by decide)
    Gen.h_S_ b j]
  rw [Read.val_main_cst_apply, Ideal.ofBits_def, ofBits_posInf_f32, fold_min_top_eq_iInf]
  simp only [dist_read]
  rfl

/-- The minimum from +∞ along the third axis, at (b, i): the distance from point i of `y` to the nearest point of `x`. -/
theorem nearX_read (x y : Pts) (b : Fin 4) (i : Fin 4096) :
    Read.val_main_v10 (F := Ideal) x y (ix2 b i) = Cert.Chamfer.nearX x y b i := by
  unfold Read.val_main_v10
  rw [Cert.Lib.MinReduce.hostReduce_minimumf_abc_ab_apply _ _ Gen.reducesTo_S4x4096x4096_S4x4096_d2 (by decide)
    Gen.h_S_ b i]
  rw [Read.val_main_cst_2_apply, Ideal.ofBits_def, ofBits_posInf_f32, fold_min_top_eq_iInf]
  simp only [dist_read]
  rfl

/-! ### The sums, the quotients and the result -/

/-- Term k of either sum over the points of batch b reads the summed array at (b, k). -/
theorem idx_sum_y (b : Fin 4) (k : Fin 4096) : Read.idx_main_v7 (ix1 b) k = ix2 b k := by
  funext a; match a with | ⟨0, _⟩ => rfl | ⟨1, _⟩ => rfl

theorem idx_sum_x (b : Fin 4) (k : Fin 4096) : Read.idx_main_v11 (ix1 b) k = ix2 b k := by
  funext a; match a with | ⟨0, _⟩ => rfl | ⟨1, _⟩ => rfl

/-- The reference's result is the specification's: per batch, the mean over the points of `x` of the distance
    to the nearest point of `y`, plus the mean over the points of `y` of the distance to the nearest point of `x`. -/
theorem reference_loss (x y : (⟨Cert.ReferenceIdeal.S4x4096x3, .f32⟩ : BufTy).Contents (Elt Ideal)) :
    Cert.ReferenceIdeal.Read.val_main_v14 (F := Ideal) x y = Cert.Chamfer.loss x y := by
  refine funext fun (k : (⟨1, ![4]⟩ : Shape).Idx) => ?_
  obtain ⟨b, rfl⟩ : ∃ b : Fin 4, k = ix1 b := ⟨k 0, eq_ix1 k⟩
  rw [Read.val_main_v14_apply, Read.val_main_v9_apply, Read.val_main_v13_apply, Read.val_main_v7_apply,
    Read.val_main_v11_apply, Read.val_main_v8_apply, Read.val_main_v12_apply, Read.val_main_cst_1_apply,
    Read.val_main_cst_4_apply, Read.val_main_cst_0_apply, Read.val_main_cst_3_apply]
  simp only [idx_sum_y, idx_sum_x, nearY_read, nearX_read]
  simp only [Ideal.addf_def, Ideal.hostDivf_def, Ideal.ofBits_def, Ideal.ofBits_zero_f32, zero_add]
  rfl

end Cert.ReferenceIdeal.RefSide

end
-- ==== Proof.LibRealEntries.lean ====
/-
  Real entries among the extended reals, and the associativity of a product of three matrices on them.

  An extended real is REAL when it is a real number (neither infinity). Sums, products and maxima of real entries are
  real, and the inclusion of the reals commutes with finite sums. On real entries multiplication distributes over
  sums, so the two ways of bracketing a product of three matrices agree entry by entry:
      Σ_k (Σ_i a i · x i k) · w k  =  Σ_i a i · (Σ_k x i k · w k)
  (`sum_mul_assoc`, over any two finite index types). With an infinite entry the two sides can differ, which is why the
  statement asks for real entries.
-/
import Idealize.ShloMosaic.PureOps.Ideal

open scoped BigOperators

noncomputable section

namespace Cert.Lib.RealEntries

/-- An extended real that is a real number. -/
def IsReal (x : EReal) : Prop := ∃ r : ℝ, x = (r : EReal)

theorem isReal_zero : IsReal 0 := ⟨0, rfl⟩

theorem isReal_coe (r : ℝ) : IsReal (r : EReal) := ⟨r, rfl⟩

/-- A sum of two real entries is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A product of two real entries is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The larger of two real entries is real. -/
theorem IsReal.max {x y : EReal} (hx : IsReal x) (hy : IsReal y) : IsReal (max x y) := by
  rcases max_choice x y with h | h <;> rw [h] <;> assumption

/-- A finite sum of real entries is real. -/
theorem IsReal.sum {ι : Type} (s : Finset ι) (f : ι → EReal) (hf : ∀ i, IsReal (f i)) : IsReal (∑ i ∈ s, f i) := by
  classical
  induction s using Finset.induction_on with
  | empty => rw [Finset.sum_empty]; exact isReal_zero
  | insert a s ha ih => rw [Finset.sum_insert ha]; exact (hf a).add ih

/-- The inclusion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty]; rfl
  | insert a s ha ih => rw [Finset.sum_insert ha, Finset.sum_insert ha, EReal.coe_add, ih]

/-- Associativity of a product of three matrices, entry by entry, for real entries:
    Σ_k (Σ_i a i · x i k) · w k = Σ_i a i · (Σ_k x i k · w k). -/
theorem sum_mul_assoc {ι κ : Type} [Fintype ι] [Fintype κ] (a : ι → EReal) (x : ι → κ → EReal) (w : κ → EReal)
    (ha : ∀ i, IsReal (a i)) (hx : ∀ i k, IsReal (x i k)) (hw : ∀ k, IsReal (w k)) :
    ∑ k, (∑ i, a i * x i k) * w k = ∑ i, a i * ∑ k, x i k * w k := by
  choose a' ha using ha
  choose x' hx using hx
  choose w' hw using hw
  have hl : ∑ k, (∑ i, a i * x i k) * w k = ((∑ k, (∑ i, a' i * x' i k) * w' k : ℝ) : EReal) := by
    rw [coe_sum]
    refine Finset.sum_congr rfl fun k _ => ?_
    rw [EReal.coe_mul, coe_sum, hw k]
    refine congrArg (· * (w' k : EReal)) (Finset.sum_congr rfl fun i _ => ?_)
    rw [EReal.coe_mul, ha i, hx i k]
  have hr : ∑ i, a i * ∑ k, x i k * w k = ((∑ i, a' i * ∑ k, x' i k * w' k : ℝ) : EReal) := by
    rw [coe_sum]
    refine Finset.sum_congr rfl fun i _ => ?_
    rw [EReal.coe_mul, coe_sum, ha i]
    refine congrArg ((a' i : EReal) * ·) (Finset.sum_congr rfl fun k _ => ?_)
    rw [EReal.coe_mul, hx i k, hw k]
  rw [hl, hr]
  refine congrArg _ ?_
  simp only [Finset.sum_mul, Finset.mul_sum]
  rw [Finset.sum_comm]
  exact Finset.sum_congr rfl fun i _ => Finset.sum_congr rfl fun k _ => mul_assoc _ _ _

end Cert.Lib.RealEntries

end
-- ==== Proof.LibFiniteEntries.lean ====
/-
  "Every entry is finite", read: at any shape, if the conjunction over a whole float array of "the entry's absolute
  value is below +∞" is 1, every entry of the array is a real number.

  This is one conjunct of a precondition of the form all(|x| < +∞): the comparison of |x| = max(x, −x) with the
  literal +∞ at every entry, reduced by "and" over every axis into a scalar. A reduction by "and" that is 1 had a 1 at
  every entry; the comparison is 1 exactly when max(x, −x) < +∞; and that holds exactly when x is neither infinity.
-/
import proofs.«175803_j49950469653255_1_alg».proof.Proof.LibRealEntries
import Idealize.ShloMosaic.Lib.ReduceAll
import Idealize.ShloMosaic.Lib.ValueIdx

noncomputable section

namespace Cert.Lib.FiniteEntries

open Idealize.ShloMosaic Idealize.ShloMosaic.ValueIdx Cert.Lib.RealEntries

/-- The scalar shape has one index. -/
instance scalarIdx_subsingleton : Subsingleton (⟨0, ![]⟩ : Shape).Idx := ⟨fun a b => funext fun d => d.elim0⟩

/-- The literal +∞. -/
theorem inf_f32 : Ideal.ofBits .f32 0x7F800000#32 = ⊤ := by simp [Ideal.ofBits, Ideal.ieee]

/-- An extended real whose absolute value is below +∞ is a real number. -/
theorem isReal_of_abs_lt_top (x : EReal) (h : max x (-x) < ⊤) : IsReal x := by
  induction x using EReal.rec with
  | bot => exact absurd h (by simp)
  | coe r => exact ⟨r, rfl⟩
  | top => exact absurd h (by simp)

/-- If "every |entry| < +∞", reduced by "and" over the whole array, is 1, every entry is real. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi
        (cmpf .olt (Host.absf x) (broadcastInDim s ![] hb (constant (F := Ideal) ⟨0, ![]⟩ .f32 0x7F800000#32)))
        (constantI ⟨0, ![]⟩ 1 1#1) hr hu ix0 = 1#1) (i : s.Idx) : IsReal (x i) := by
  have hi := Host.reduce_andi_all _ _ hr hu ix0 h i
  have hi' : Ideal.cmp .olt (max (x i) (-(x i))) (Ideal.ofBits .f32 0x7F800000#32) = 1#1 := hi
  rw [inf_f32] at hi'
  refine isReal_of_abs_lt_top (x i) ?_
  by_contra hn
  have h0 : Ideal.cmp .olt (max (x i) (-(x i))) ⊤ = 0#1 := by simp [Ideal.cmp, hn]
  rw [h0] at hi'
  exact absurd hi' (by decide)

end Cert.Lib.FiniteEntries

end
-- ==== Proof.FiniteArgs.lean ====
/-
  The precondition makes every input entry a real number.

  The precondition says that, for both argument arrays, the conjunction over the whole array of "the entry's absolute
  value is below +∞" is 1, and that the conjunction of the two is 1. A conjunction of two bits that is 1 has both
  bits 1; a conjunction over a whole array that is 1 had a 1 at every entry; and an extended real whose absolute
  value is below +∞ is neither infinity, that is, a real number.
-/
import proofs.«175803_j49950469653255_1_alg».proof.Defs
import proofs.«175803_j49950469653255_1_alg».proof.Proof.LibFiniteEntries

noncomputable section

namespace Cert.Chamfer

open Idealize.ShloMosaic Idealize.ShloMosaic.ValueIdx Idealize.SL.Sem Cert.Lib.RealEntries Cert.Lib.FiniteEntries

/-- Under the precondition every entry of both argument arrays is a real number. -/
theorem real_of_pre [Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal)) ∧
    (∀ i, ∃ r : ℝ, m ((c.tc : Thread Cert.KernelIdeal.nD Cert.KernelIdeal.τ).loc Cert.KernelIdeal.main_arg1) i = (r : EReal)) := by
  have h0 := congrFun (h c) ix0
  dsimp only [Cert.Pre_finite_inputs.fn] at h0
  obtain ⟨h1, h2⟩ := IntOp.andi_eq_one.1 h0
  exact ⟨fun i => real_of_all _ _ _ _ h1 i, fun i => real_of_all _ _ _ _ h2 i⟩

end Cert.Chamfer

end
-- ==== Proof.lean ====
/-
  A bidirectional nearest-neighbour distance between two point clouds, kernel against reference.

  Per batch the inputs are two clouds of 4096 points of three coordinates, `x` and `y`.  Both programs
  compute, per batch, the mean over the points of `x` of the distance to the nearest point of `y`, plus the
  mean over the points of `y` of the distance to the nearest point of `x` (Proof/Chamfer.lean states it once).

  The reference forms every coordinate difference, squares, sums over the three coordinates, takes the
  square root, and reduces by minimum along either axis (Proof/RefSide.lean reads its run entry by entry).

  The kernel visits one batch per grid point.  It expands the squared distance as
  `|y|² + |x|² − 2 y·x`, clamps at zero, takes the square root tile by tile (sixteen tiles of 1024 × 1024),
  and folds each tile's column and row minima into two running rows that start at +∞
  (Proof/Tile.lean, Proof/TileRead.lean: one tile; Proof/Sweep.lean, Proof/SweepInv.lean: the sweep;
  Proof/PointValue.lean: one grid point).  On real inputs the expansion is the sum of squared differences
  (Proof/RealDist.lean), and the precondition makes every input real (Proof/FiniteArgs.lean).  Each point
  writes its batch's result into its own entry of a four-entry buffer and keeps the other entries, and
  the buffer is written back once at the end, so the output array ends at the specification
  (Proof/KIArray.lean, Proof/KIResult.lean).  The frames of both printed kernels come from the same run of
  the body (Proof/KBody.lean, Proof/KIBody.lean); the reference's frame is its run with the result dropped.
-/
import proofs.«175803_j49950469653255_1_alg».proof.Defs
import proofs.«175803_j49950469653255_1_alg».proof.Proof.Gen.Kernel
import proofs.«175803_j49950469653255_1_alg».proof.Proof.Gen.KernelIdeal
import proofs.«175803_j49950469653255_1_alg».proof.Proof.Gen.ReferenceIdeal
import proofs.«175803_j49950469653255_1_alg».proof.Proof.Gen.Pre_finite_inputs
import proofs.«175803_j49950469653255_1_alg».proof.Proof.KBody
import proofs.«175803_j49950469653255_1_alg».proof.Proof.KIResult
import proofs.«175803_j49950469653255_1_alg».proof.Proof.RefSide
import proofs.«175803_j49950469653255_1_alg».proof.Proof.FiniteArgs
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Body.frame m ρ

/-- So does the kernel read over the extended reals. -/
theorem frame_kernelIdeal : Cert.frame_KernelIdeal := fun m ρ _ => Cert.KernelIdeal.Body.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the specification's result of the (agreeing) argument arrays. -/
theorem algebraic : Cert.algebraic_KernelIdeal_ReferenceIdeal := by
  intro m ρ m' ρ' hpre hagree
  refine ⟨fun c => Cert.Chamfer.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Body.run_value m ρ (fun c => Cert.Chamfer.real_of_pre m hpre c), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v14_eq _ _).trans (Cert.ReferenceIdeal.RefSide.reference_loss _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
